-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S512x2048 : Shape := ⟨2, ![512, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S8192x1024 .f32) (main_arg1 : FVec F S2048x1024 .f32) (main_arg2 : FVec F S512x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  main_v13
-- ==== Kernel.lean ====
abbrev S8192x1024 : Shape := ⟨2, ![8192, 1024]⟩
abbrev S2048x1024 : Shape := ⟨2, ![2048, 1024]⟩
abbrev S512x2048 : Shape := ⟨2, ![512, 2048]⟩
abbrev S_ : Shape := ⟨0, ![]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S8192x1 : Shape := ⟨2, ![8192, 1]⟩
abbrev S256x1024 : Shape := ⟨2, ![256, 1024]⟩
abbrev S256x1 : Shape := ⟨2, ![256, 1]⟩
abbrev S256x2048 : Shape := ⟨2, ![256, 2048]⟩
abbrev S256 : Shape := ⟨1, ![256]⟩
abbrev S256x512 : Shape := ⟨2, ![256, 512]⟩
abbrev S8192 : Shape := ⟨1, ![8192]⟩

abbrev nBuf : Space → Nat
  | .hbm => 25
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S512x2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S512x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S2048x1024, .bf16⟩
  | .hbm, ⟨18, _⟩ => ⟨S512x2048, .bf16⟩
  | .hbm, ⟨19, _⟩ => ⟨S1024x2048, .f32⟩
  | .hbm, ⟨20, _⟩ => ⟨S1024x2048, .bf16⟩
  | .hbm, ⟨21, _⟩ => ⟨S2048x512, .f32⟩
  | .hbm, ⟨22, _⟩ => ⟨S2048x512, .bf16⟩
  | .hbm, ⟨23, _⟩ => ⟨S8192x1, .f32⟩
  | .hbm, ⟨24, _⟩ => ⟨S8192, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S512x2048, .bf16⟩
  | .local _ .vmem, ⟨4, _⟩ => ⟨S1024x2048, .bf16⟩
  | .local _ .vmem, ⟨5, _⟩ => ⟨S2048x512, .bf16⟩
  | .local _ .vmem, ⟨6, _⟩ => ⟨S1x2048, .f32⟩
  | .local _ .vmem, ⟨7, _⟩ => ⟨S1x2048, .f32⟩
  | .local _ .vmem, ⟨8, _⟩ => ⟨S256x1, .f32⟩
  | .local _ .vmem, ⟨9, _⟩ => ⟨S256x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S2048x1024_S2048_d1 : S2048x1024.ReducesTo [1] S2048
  h_S_ : 0 < S_.numel
  bcast_S_S2048 : S_.BroadcastsInDim S2048 (![] : Fin 0 → Fin S2048.rank)
  shapeCasts_S2048_S1x2048 : S2048.ShapeCasts S1x2048
  reducesTo_S512x2048_S2048_d0 : S512x2048.ReducesTo [0] S2048
  bitsLt_bf16_f32 : FTy.bits .bf16 < FTy.bits .f32
  transposes_S2048x1024_S1024x2048_1_0 : S2048x1024.Transposes [1, 0] S1024x2048
  transposes_S512x2048_S2048x512_1_0 : S512x2048.Transposes [1, 0] S2048x512
  inb_S256x1024_S256x1024_0_0 : ∀ a, (![0, 0] : Fin 2 → Nat) a + S256x1024.size a ≤ S256x1024.size a
  h_S256x1024 : 0 < S256x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  reduces_S256x1024_S256 : S256x1024.Reduces [1] S256
  inb_S256x1_S256x1_0_0 : ∀ a, (![0, 0] : Fin 2 → Nat) a + S256x1.size a ≤ S256x1.size a
  h_S256x1 : 0 < S256x1.numel
  shapeCasts_S8192x1_S8192 : S8192x1.ShapeCasts S8192
  dot_S256x1024_S1024x2048_S256x2048_1_0_0_1_n_n_wf : DotDims.WF S256x1024 S1024x2048 S256x2048 [1] [0] [0] [1] [] []
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S8192x1.size a
  hwx0_7 : ∀ i : grid0.Coords, EltTy.bits .f32 = 32 ∨ (Rect.block (s := S8192x1) S256x1.size (cc0_transform_7 i) (hinb0_7 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S512x2048 : Shape := ⟨2, ![512, 2048]⟩
abbrev S1024x2048 : Shape := ⟨2, ![1024, 2048]⟩
abbrev S2048x512 : Shape := ⟨2, ![2048, 512]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x2048 : Shape := ⟨2, ![1, 2048]⟩
abbrev S8192x2048 : Shape := ⟨2, ![8192, 2048]⟩
abbrev S8192x512 : Shape := ⟨2, ![8192, 512]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S512x2048, .f32⟩
  | .hbm, ⟨3, _⟩ => ⟨S1024x2048, .f32⟩
  | .hbm, ⟨4, _⟩ => ⟨S2048x512, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S1024x2048, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x512, .f32⟩
  | .hbm, ⟨45, _⟩ => ⟨S512x2048, .f32⟩
  | .hbm, ⟨46, _⟩ => ⟨S8192x512, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S512x2048, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x1, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x2048, .f32⟩
  | .hbm, ⟨84, _⟩ => ⟨S8192x2048, .f32⟩
  | .hbm, ⟨85, _⟩ => ⟨S2048x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_cst_15 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_17 : Ref sig .tc := ⟨.hbm, 89, rfl⟩
abbrev main_v68 : Ref sig .tc := ⟨.hbm, 90, rfl⟩
abbrev main_cst_18 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  transposes_S2048x1024_S1024x2048_1_0 : S2048x1024.Transposes [1, 0] S1024x2048
  transposes_S512x2048_S2048x512_1_0 : S512x2048.Transposes [1, 0] S2048x512
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  reducesTo_S1024x2048_S2048_d0 : S1024x2048.ReducesTo [0] S2048
  bcast_S_S2048 : S_.BroadcastsInDim S2048 (![] : Fin 0 → Fin S2048.rank)
  bcast_S2048_S1x2048_1 : S2048.BroadcastsInDim S1x2048 (![1] : Fin 1 → Fin S1x2048.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  bcast_S_S8192 : S_.BroadcastsInDim S8192 (![] : Fin 0 → Fin S8192.rank)
  transposes_S2048x512_S512x2048_1_0 : S2048x512.Transposes [1, 0] S512x2048
  reducesTo_S8192x512_S8192_d1 : S8192x512.ReducesTo [1] S8192
  reducesTo_S512x2048_S2048_d0 : S512x2048.ReducesTo [0] S2048
  transposes_S1024x2048_S2048x1024_1_0 : S1024x2048.Transposes [1, 0] S2048x1024
  dot_S8192x1024_S1024x2048_S8192x2048_1_0_0_1_n_n_wf : DotDims.WF S8192x1024 S1024x2048 S8192x2048 [1] [0] [0] [1] [] []
  dot_S8192x2048_S2048x512_S8192x512_1_0_0_1_n_n_wf : DotDims.WF S8192x2048 S2048x512 S8192x512 [1] [0] [0] [1] [] []
  dot_S8192x512_S512x2048_S8192x2048_1_0_0_1_n_n_wf : DotDims.WF S8192x512 S512x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Finite.lean ====
/-
  Finiteness of the inputs. The precondition of the certificate says that a predicate —
  for each of the three argument arrays, "all entries satisfy |x| < +inf", the three conjoined — evaluates to 1.
  Read at the ideal instance (a float is an extended real) this says that every entry of every argument
  array is a real number: neither of the two infinities. This file reads the predicate back, first for
  abstract arrays and then for the arrays a memory holds at the kernel's three arguments.
-/
import proofs.«155095_j67551245631803_2_alg».proof.Defs
import Idealize.ShloMosaic.Lib.ReduceAll
import Idealize.ShloMosaic.Lib.ValueIdx

noncomputable section

namespace Cert.Enc.Finite

open Idealize.ShloMosaic Idealize.SL.Sem

/-- The scalar shape has exactly one index (the empty tuple of coordinates). -/
instance : Subsingleton Cert.Pre_finite_inputs.S_.Idx := ⟨fun a b => funext fun d => d.elim0⟩

/-- The f32 pattern `0x7F800000` (sign 0, exponent all ones, fraction 0) denotes `+∞`. -/
theorem inf_bits : Ideal.ofBits .f32 0x7F800000#32 = (⊤ : EReal) := by
  simp [Ideal.ofBits, Ideal.ieee]

/-- An extended real whose absolute value `max x (-x)` is strictly below `+∞` is a real:
    for `x = ⊤` the maximum is `⊤`, and for `x = ⊥` it is `-⊥ = ⊤` as well. -/
theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

open Cert.Pre_finite_inputs in
/-- The predicate read back for abstract arrays. Its value at the one scalar index is a conjunction
    (bitwise `and` of one-bit words) of three reductions by `and` over all axes; a reduction by `and` from 1 that
    comes out 1 met a 1 at every index; and the word at index `i` is the comparison `|A i| < +∞`. -/
theorem real_of_fn [Cert.Pre_finite_inputs.Facts]
    (A0 : FVec Ideal S8192x1024 .f32) (A1 : FVec Ideal S2048x1024 .f32) (A2 : FVec Ideal S512x2048 .f32)
    (h : Cert.Pre_finite_inputs.fn (F := Ideal) A0 A1 A2 = fun _ => 1#1) :
    (∀ i, ∃ r : ℝ, A0 i = (r : EReal)) ∧ (∀ i, ∃ r : ℝ, A1 i = (r : EReal)) ∧ (∀ i, ∃ r : ℝ, A2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt (A0 i) (Host.reduce_andi_all _ _ _ _ _ h0' i),
    fun i => real_of_abs_lt (A1 i) (Host.reduce_andi_all _ _ _ _ _ h1 i),
    fun i => real_of_abs_lt (A2 i) (Host.reduce_andi_all _ _ _ _ _ h2 i)⟩

/-- Under the certificate's precondition every entry of each of the three argument arrays the memory holds,
    on every device, is a real number. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  real_of_fn _ _ _ (h c)

/-- The same statement with the index sets written as the arrays' shapes. -/
theorem real_of_pre_shapes [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S8192x1024.Idx, ∃ r : ℝ, m ((c.tc : Thread Cert.KernelIdeal.nD Cert.KernelIdeal.τ).loc Cert.KernelIdeal.main_arg0) i = (r : EReal))
    ∧ (∀ i : Cert.KernelIdeal.S2048x1024.Idx, ∃ r : ℝ, m ((c.tc : Thread Cert.KernelIdeal.nD Cert.KernelIdeal.τ).loc Cert.KernelIdeal.main_arg1) i = (r : EReal))
    ∧ (∀ i : Cert.KernelIdeal.S512x2048.Idx, ∃ r : ℝ, m ((c.tc : Thread Cert.KernelIdeal.nD Cert.KernelIdeal.τ).loc Cert.KernelIdeal.main_arg2) i = (r : EReal)) :=
  real_of_fn _ _ _ (h c)

end Cert.Enc.Finite

end
-- ==== Proof.Algebra.lean ====
/-
  The mathematics of the certificate, free of any program text.

  One input row `x` (length D) is soft-assigned to the K rows of a codebook `C` by a softmax over
  K logits; the assignment mixes the rows of a second matrix into a latent row, which is soft-assigned
  again and mixed back into a reconstruction; the result is the mean squared error of the reconstruction.

  The logit of codebook row `k` is, in the long form, `β · ((⟨x, C k⟩ · c − |x|²/n) − |C k|²/n)`, and in
  the short form `β · (⟨x, C k⟩ · c − |C k|²/n)`: the two differ by `β · |x|²/n`, which does not depend on
  `k`. A softmax subtracts the row's maximum before exponentiating, so a shift of every logit by one
  finite number leaves every exponent, hence every weight, unchanged. The law is one of the REAL numbers:
  on the extended reals `(a − s) − (M − s) = a − M` and the distribution of `β` over the difference need
  `a`, `s` and `β` finite. So everything here is stated for entries that are real numbers, and the
  softmax's weights are shown to be real again so that the second stage meets the same hypotheses.
-/
import Idealize.ShloMosaic.PureOps.Ideal
import Idealize.ShloMosaic.PureOps.Ideal.Laws

noncomputable section

namespace Cert.Enc

open Idealize.ShloMosaic
open scoped BigOperators

/-! ## Extended reals that are real numbers -/

/-- The extended real is (the image of) a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers, taken in the extended reals, is the real sum. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i, IsReal (f i)) : IsReal (∑ i ∈ s, f i) := by
  choose g hg using h
  rw [Finset.sum_congr rfl (fun i _ => hg i)]
  exact ⟨_, coe_sum s g⟩

/-- A real number divided by a nonzero real number is real. -/
theorem IsReal.div {x y : EReal} (hx : IsReal x) (hy : ∃ r : ℝ, r ≠ 0 ∧ y = (r : EReal)) : IsReal (Ideal.div x y) := by
  obtain ⟨r, hr, rfl⟩ := hy
  rw [Ideal.div_coe hr]
  exact hx.mul (IsReal.coe _)

/-! ## The constants the two programs spell -/

theorem ofBits_neg_inf : Ideal.ofBits .f32 0xFF800000#32 = ⊥ := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- `2/1024`, `2/512` and the softmax temperature are finite patterns: each denotes some real number
    (which one does not matter: both programs spell the same pattern). -/
theorem isReal_two_over_1024 : IsReal (Ideal.ofBits .f32 0x3B000000#32) := by
  simp only [Ideal.ofBits, Ideal.ieee]; norm_num; exact ⟨_, rfl⟩

theorem isReal_two_over_512 : IsReal (Ideal.ofBits .f32 0x3B800000#32) := by
  simp only [Ideal.ofBits, Ideal.ieee]; norm_num; exact ⟨_, rfl⟩

theorem isReal_temperature : IsReal (Ideal.ofBits .f32 0x3A83126F#32) := by
  simp only [Ideal.ofBits, Ideal.ieee]; norm_num; exact ⟨_, rfl⟩

/-! ## The words both programs spell, by name -/

/-- The softmax temperature. -/
abbrev β : EReal := Ideal.ofBits .f32 0x3A83126F#32
/-- `2/1024`, the scale of the first inner products. -/
abbrev cD : EReal := Ideal.ofBits .f32 0x3B000000#32
/-- `1024`, the length of an input row. -/
abbrev nD : EReal := Ideal.ofBits .f32 0x44800000#32
/-- `2/512`, the scale of the second inner products. -/
abbrev cE : EReal := Ideal.ofBits .f32 0x3B800000#32
/-- `512`, the length of a latent row. -/
abbrev nE : EReal := Ideal.ofBits .f32 0x44000000#32

theorem nD_real : ∃ r : ℝ, r ≠ 0 ∧ nD = (r : EReal) := ⟨1024, by norm_num, ofBits_1024⟩
theorem nE_real : ∃ r : ℝ, r ≠ 0 ∧ nE = (r : EReal) := ⟨512, by norm_num, ofBits_512⟩

/-- The host's exponential at an index. -/
theorem hostExp_apply {s : Shape} {φ : FTy} (x : FVec Ideal s φ) (i : s.Idx) : Host.exp x i = Ideal.exp (x i) := rfl
/-- The kernel's exponential at an index. -/
theorem exp_apply {s : Shape} {φ : FTy} (x : FVec Ideal s φ) (i : s.Idx) : exp x i = Ideal.exp (x i) := rfl

/-! ## The row-level specification -/

section Spec

variable {d K : ℕ}

/-- The short logits: `β · (⟨x, C k⟩ · c − |C k|²/n)`. -/
def logShort (β c n : EReal) (x : Fin d → EReal) (C : Fin K → Fin d → EReal) (k : Fin K) : EReal :=
  β * ((∑ i, x i * C k i) * c - Ideal.div (∑ i, C k i * C k i) n)

/-- The long logits: `β · ((⟨x, C k⟩ · c − |x|²/n) − |C k|²/n)`. -/
def logLong (β c n : EReal) (x : Fin d → EReal) (C : Fin K → Fin d → EReal) (k : Fin K) : EReal :=
  β * (((∑ i, x i * C k i) * c - Ideal.div (∑ i, x i * x i) n) - Ideal.div (∑ i, C k i * C k i) n)

/-- The softmax of a row of logits as both programs compute it: the row's maximum (a fold of `max` from `−∞`,
    joined with `−∞` once more) is subtracted, the differences are exponentiated and divided by their sum. -/
def smax (a : Fin K → EReal) (k : Fin K) : EReal :=
  Ideal.div (Ideal.exp (a k - max ⊥ ((Finset.univ : Finset (Fin K)).fold max ⊥ a)))
    (∑ k', Ideal.exp (a k' - max ⊥ ((Finset.univ : Finset (Fin K)).fold max ⊥ a)))

/-- The rows of `C` mixed by the weights `p`. -/
def mix (p : Fin K → EReal) (C : Fin K → Fin d → EReal) (i : Fin d) : EReal := ∑ k, p k * C k i

/-- The mean of the squared differences. -/
def mse (n : EReal) (y x : Fin d → EReal) : EReal := Ideal.div (∑ i, (y i - x i) * (y i - x i)) n

end Spec

section Enc

variable {D K E : ℕ}

/-- The whole row function in the short form: encode against the rows of `W1`, mix the columns of `W2` into a latent
    row, encode that against the columns of `W2`, mix the rows of `W1` back, compare with the input. -/
def encShort (β cD nD cE nE : EReal) (W1 : Fin K → Fin D → EReal) (W2 : Fin E → Fin K → EReal) (x : Fin D → EReal) : EReal :=
  mse nD (mix (smax (logShort β cE nE (mix (smax (logShort β cD nD x W1)) (fun k j => W2 j k)) (fun k j => W2 j k))) W1) x

/-- The same in the long form. -/
def encLong (β cD nD cE nE : EReal) (W1 : Fin K → Fin D → EReal) (W2 : Fin E → Fin K → EReal) (x : Fin D → EReal) : EReal :=
  mse nD (mix (smax (logLong β cE nE (mix (smax (logLong β cD nD x W1)) (fun k j => W2 j k)) (fun k j => W2 j k))) W1) x

end Enc

/-! ## A softmax does not see a shift of its logits by one real number -/

theorem max_sub_coe (x y : EReal) (s : ℝ) : max (x - s) (y - s) = max x y - s := by
  rcases le_total x y with h | h
  · rw [max_eq_right h, max_eq_right (EReal.sub_le_sub h le_rfl)]
  · rw [max_eq_left h, max_eq_left (EReal.sub_le_sub h le_rfl)]

theorem fold_max_sub_coe {ι : Type*} (t : Finset ι) (a : ι → EReal) (s : ℝ) :
    t.fold max ⊥ (fun k => a k - s) = t.fold max ⊥ a - s := by
  classical
  induction t using Finset.induction_on with
  | empty => simp [EReal.bot_sub]
  | insert b t hb ih => rw [Finset.fold_insert hb, Finset.fold_insert hb, ih, max_sub_coe]

/-- Real `r`, real `s`, any bound `M`: the shift cancels. -/
theorem sub_sub_sub_coe (r s : ℝ) (M : EReal) : ((r : EReal) - s) - (M - s) = (r : EReal) - M := by
  induction M using EReal.rec with
  | bot => rw [EReal.bot_sub, ← EReal.coe_sub, EReal.coe_sub_bot, EReal.coe_sub_bot]
  | top => rw [EReal.top_sub_coe, EReal.sub_top, EReal.sub_top]
  | coe m => rw [← EReal.coe_sub, ← EReal.coe_sub, ← EReal.coe_sub, ← EReal.coe_sub]; congr 1; ring

theorem smax_shift {K : ℕ} (a : Fin K → EReal) (ha : ∀ k, IsReal (a k)) (s : ℝ) :
    smax (fun k => a k - s) = smax a := by
  choose r hr using ha
  have e : ∀ k, (a k - s) - max ⊥ ((Finset.univ : Finset (Fin K)).fold max ⊥ (fun k => a k - s))
      = a k - max ⊥ ((Finset.univ : Finset (Fin K)).fold max ⊥ a) := by
    intro k
    rw [fold_max_sub_coe, max_eq_right bot_le, max_eq_right bot_le, hr k, sub_sub_sub_coe]
  funext k
  unfold smax
  simp only [e]

/-! ## The softmax's weights are real numbers -/

theorem isReal_of_ne {x : EReal} (h1 : x ≠ ⊤) (h2 : x ≠ ⊥) : IsReal x := ⟨x.toReal, (EReal.coe_toReal h1 h2).symm⟩

theorem isReal_fold_max {K : ℕ} (hK : 0 < K) (a : Fin K → EReal) (ha : ∀ k, IsReal (a k)) :
    IsReal (max ⊥ ((Finset.univ : Finset (Fin K)).fold max ⊥ a)) := by
  rw [max_eq_right bot_le]
  refine isReal_of_ne (ne_of_lt ?_) (ne_of_gt ?_)
  · rw [Finset.fold_max_lt]
    refine ⟨bot_lt_top, fun k _ => ?_⟩
    obtain ⟨r, hr⟩ := ha k; rw [hr]; exact EReal.coe_lt_top r
  · obtain ⟨r, hr⟩ := ha ⟨0, hK⟩
    refine lt_of_lt_of_le (EReal.bot_lt_coe r) ?_
    rw [← hr, Finset.le_fold_max]
    exact Or.inr ⟨⟨0, hK⟩, Finset.mem_univ _, le_rfl⟩

theorem isReal_smax {K : ℕ} (hK : 0 < K) (a : Fin K → EReal) (ha : ∀ k, IsReal (a k)) (k : Fin K) : IsReal (smax a k) := by
  obtain ⟨M, hM⟩ := isReal_fold_max hK a ha
  choose r hr using ha
  unfold smax
  rw [hM]
  have e : ∀ k', Ideal.exp (a k' - (M : EReal)) = ((Real.exp (r k' - M) : ℝ) : EReal) := by
    intro k'; rw [hr k', ← EReal.coe_sub]; rfl
  simp only [e]
  rw [coe_sum]
  refine IsReal.div (IsReal.coe _) ⟨_, ?_, rfl⟩
  exact ne_of_gt (Finset.sum_pos (fun k' _ => Real.exp_pos _) ⟨⟨0, hK⟩, Finset.mem_univ _⟩)

/-! ## The long form is the short form -/

section Laws

variable {d K : ℕ}

theorem isReal_dot (x y : Fin d → EReal) (hx : ∀ i, IsReal (x i)) (hy : ∀ i, IsReal (y i)) : IsReal (∑ i, x i * y i) :=
  IsReal.sum _ _ fun i => (hx i).mul (hy i)

theorem isReal_logShort {β c n : EReal} (hβ : IsReal β) (hc : IsReal c) (hn : ∃ r : ℝ, r ≠ 0 ∧ n = (r : EReal))
    (x : Fin d → EReal) (C : Fin K → Fin d → EReal) (hx : ∀ i, IsReal (x i)) (hC : ∀ k i, IsReal (C k i)) (k : Fin K) :
    IsReal (logShort β c n x C k) :=
  hβ.mul (((isReal_dot x (C k) hx (hC k)).mul hc).sub ((isReal_dot (C k) (C k) (hC k) (hC k)).div hn))

/-- The long logits are the short ones shifted by one real number, the same for every `k`. -/
theorem logLong_eq_shift {β c n : EReal} (hβ : IsReal β) (hc : IsReal c) (hn : ∃ r : ℝ, r ≠ 0 ∧ n = (r : EReal))
    (x : Fin d → EReal) (C : Fin K → Fin d → EReal) (hx : ∀ i, IsReal (x i)) (hC : ∀ k i, IsReal (C k i)) :
    ∃ s : ℝ, logLong β c n x C = fun k => logShort β c n x C k - s := by
  obtain ⟨b, hb⟩ := hβ
  obtain ⟨q, hq⟩ := (isReal_dot x x hx hx).div hn
  refine ⟨b * q, funext fun k => ?_⟩
  obtain ⟨u, hu⟩ := (isReal_dot x (C k) hx (hC k)).mul hc
  obtain ⟨v, hv⟩ := (isReal_dot (C k) (C k) (hC k) (hC k)).div hn
  unfold logLong logShort
  rw [hu, hv, hq, hb]
  simp only [← EReal.coe_sub, ← EReal.coe_mul]
  congr 1; ring

theorem smax_logLong {β c n : EReal} (hβ : IsReal β) (hc : IsReal c) (hn : ∃ r : ℝ, r ≠ 0 ∧ n = (r : EReal))
    (x : Fin d → EReal) (C : Fin K → Fin d → EReal) (hx : ∀ i, IsReal (x i)) (hC : ∀ k i, IsReal (C k i)) :
    smax (logLong β c n x C) = smax (logShort β c n x C) := by
  obtain ⟨s, hs⟩ := logLong_eq_shift hβ hc hn x C hx hC
  rw [hs]
  exact smax_shift _ (isReal_logShort hβ hc hn x C hx hC) s

end Laws

/-- On real entries the long form of the row function is the short form. -/
theorem encLong_eq_encShort {D K E : ℕ} (hK : 0 < K) {β cD nD cE nE : EReal} (hβ : IsReal β) (hcD : IsReal cD)
    (hnD : ∃ r : ℝ, r ≠ 0 ∧ nD = (r : EReal)) (hcE : IsReal cE) (hnE : ∃ r : ℝ, r ≠ 0 ∧ nE = (r : EReal))
    (W1 : Fin K → Fin D → EReal) (W2 : Fin E → Fin K → EReal) (x : Fin D → EReal)
    (hW1 : ∀ k i, IsReal (W1 k i)) (hW2 : ∀ j k, IsReal (W2 j k)) (hx : ∀ i, IsReal (x i)) :
    encLong β cD nD cE nE W1 W2 x = encShort β cD nD cE nE W1 W2 x := by
  unfold encLong encShort
  rw [smax_logLong hβ hcD hnD x W1 hx hW1]
  have hlat : ∀ j, IsReal (mix (smax (logShort β cD nD x W1)) (fun k j => W2 j k) j) := fun j =>
    IsReal.sum _ _ fun k => (isReal_smax hK _ (isReal_logShort hβ hcD hnD x W1 hx hW1) k).mul (hW2 j k)
  rw [smax_logLong hβ hcE hnE _ (fun k j => W2 j k) hlat (fun k j => hW2 j k)]

end Cert.Enc

end
-- ==== Proof.Ops.lean ====
/-
  Each operation the two programs use, read at one index of a matrix or a vector, at the exact instance
  (extended reals, exact operations): a sum or a maximum along one axis of a matrix as a sum or a fold over that
  axis's coordinates; a matrix product as the sum over the contracted coordinate of the products; the keep-dimension
  reshapes and broadcasts of a column or a row as reads of that column or row. Stated for matrices of any extents,
  so that one lemma serves the kernel's blocks of rows and the reference's whole arrays alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Enc.Ops

open Idealize.ShloMosaic Idealize.ShloMosaic.ValueIdx
open scoped BigOperators

variable {R C K : ℕ} {α : Type}

/-! ## The index over a reduced index -/

/-- Row `r` with column `k` put back. -/
theorem lift_row (h : (⟨2, ![R, C]⟩ : Shape).Reduces [1] ⟨1, ![R]⟩) (r : Fin R) (k : Fin C) :
    h.lift (ix1 r) k = ix2 r k := by
  funext c; apply Fin.ext
  match c with
  | ⟨0, _⟩ => rfl
  | ⟨1, _⟩ => rfl

/-- Column `c` with row `k` put back. -/
theorem lift_col (h : (⟨2, ![R, C]⟩ : Shape).Reduces [0] ⟨1, ![C]⟩) (c : Fin C) (k : Fin R) :
    h.lift (ix1 c) k = ix2 k c := by
  funext a; apply Fin.ext
  match a with
  | ⟨0, _⟩ => rfl
  | ⟨1, _⟩ => rfl

/-! ## Sums and maxima along one axis -/

/-- The host's sum along the rows: the initial value plus the row's sum. -/
theorem host_rowSum (x : FVec Ideal ⟨2, ![R, C]⟩ .f32) (init : FVec Ideal ⟨0, ![]⟩ .f32)
    (h' : (⟨2, ![R, C]⟩ : Shape).ReducesTo [1] ⟨1, ![R]⟩) (hu : 0 < (⟨0, ![]⟩ : Shape).numel) (r : Fin R) :
    Host.reduceAdd x init h' hu (ix1 r) = init ix0 + ∑ k : Fin C, x (ix2 r k) := by
  have h : (⟨2, ![R, C]⟩ : Shape).Reduces [1] ⟨1, ![R]⟩ := ⟨h'.1, Nat.one_pos, h'.2⟩
  rw [hostReduceAdd_apply, Ideal.hostReduceAdd_single h' h, eq_ix0 (Shape.Idx.first hu)]
  exact congrArg (init ix0 + ·) (Finset.sum_congr rfl fun k _ => congrArg x (lift_row h r k))

/-- The host's sum down the columns: the initial value plus the column's sum. -/
theorem host_colSum (x : FVec Ideal ⟨2, ![R, C]⟩ .f32) (init : FVec Ideal ⟨0, ![]⟩ .f32)
    (h' : (⟨2, ![R, C]⟩ : Shape).ReducesTo [0] ⟨1, ![C]⟩) (hu : 0 < (⟨0, ![]⟩ : Shape).numel) (c : Fin C) :
    Host.reduceAdd x init h' hu (ix1 c) = init ix0 + ∑ k : Fin R, x (ix2 k c) := by
  have h : (⟨2, ![R, C]⟩ : Shape).Reduces [0] ⟨1, ![C]⟩ := ⟨h'.1, Nat.one_pos, h'.2⟩
  rw [hostReduceAdd_apply, Ideal.hostReduceAdd_single h' h, eq_ix0 (Shape.Idx.first hu)]
  exact congrArg (init ix0 + ·) (Finset.sum_congr rfl fun k _ => congrArg x (lift_col h c k))

/-- The host's maximum along the rows: the fold of `max` from the initial value over the row. -/
theorem host_rowMax (x : FVec Ideal ⟨2, ![R, C]⟩ .f32) (init : FVec Ideal ⟨0, ![]⟩ .f32)
    (h' : (⟨2, ![R, C]⟩ : Shape).ReducesTo [1] ⟨1, ![R]⟩) (hu : 0 < (⟨0, ![]⟩ : Shape).numel) (r : Fin R) :
    Host.reduce FloatOps.maximumf x init h' hu (ix1 r)
      = (Finset.univ : Finset (Fin C)).fold max (init ix0) (fun k => x (ix2 r k)) := by
  have h : (⟨2, ![R, C]⟩ : Shape).Reduces [1] ⟨1, ![R]⟩ := ⟨h'.1, Nat.one_pos, h'.2⟩
  rw [Host.reduce_eq_fold_single FloatOps.maximumf x init h' h hu, eq_ix0 (Shape.Idx.first hu)]
  have e : (x ∘ h.lift (ix1 r)) = fun k : Fin C => x (ix2 r k) := funext fun k => congrArg x (lift_row h r k)
  rw [e]; rfl

/-- A lane sum of a block: the row's sum. -/
theorem vec_rowSum (src : FVec Ideal ⟨2, ![R, C]⟩ .f32) (acc : BitVec (FTy.bits .f32))
    (h : (⟨2, ![R, C]⟩ : Shape).Reduces [1] ⟨1, ![R]⟩) (hφ : FKind.Formats .f32) (hacc : acc = FKind.add.neutral .f32 hφ) (r : Fin R) :
    multiReduction .add [1] ⟨1, ![R]⟩ src acc h hφ hacc (ix1 r) = ∑ k : Fin C, src (ix2 r k) := by
  rw [Ideal.multiReduction_add_single]
  exact Finset.sum_congr rfl fun k _ => congrArg src (lift_row h r k)

/-- A lane maximum of a block: the fold of `max` from the accumulator's value over the row. -/
theorem vec_rowMax (src : FVec Ideal ⟨2, ![R, C]⟩ .f32) (acc : BitVec (FTy.bits .f32))
    (h : (⟨2, ![R, C]⟩ : Shape).Reduces [1] ⟨1, ![R]⟩) (hφ : FKind.Formats .f32) (hacc : acc = FKind.maximumf.neutral .f32 hφ) (r : Fin R) :
    multiReduction .maximumf [1] ⟨1, ![R]⟩ src acc h hφ hacc (ix1 r)
      = (Finset.univ : Finset (Fin C)).fold max (Ideal.ofBits .f32 acc) (fun k => src (ix2 r k)) := by
  rw [Ideal.multiReduction_maximumf_single]
  have e : (src ∘ h.lift (ix1 r)) = fun k : Fin C => src (ix2 r k) := funext fun k => congrArg src (lift_row h r k)
  rw [e]; rfl

/-! ## Columns and rows kept as unit axes -/

/-- A vector cast to a column reads the vector. -/
theorem shapeCast_col (x : (⟨1, ![R]⟩ : Shape).Idx → α) (h : (⟨1, ![R]⟩ : Shape).ShapeCasts ⟨2, ![R, 1]⟩) (r : Fin R) (u : Fin 1) :
    shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column cast to a vector reads the column. -/
theorem shapeCast_uncol (x : (⟨2, ![R, 1]⟩ : Shape).Idx → α) (h : (⟨2, ![R, 1]⟩ : Shape).ShapeCasts ⟨1, ![R]⟩) (r : Fin R) :
    shapeCast ⟨1, ![R]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column broadcast over the columns of a matrix reads the column at the row. -/
theorem broadcastTo_col (v : (⟨2, ![R, 1]⟩ : Shape).Idx → α) (h : (⟨2, ![R, 1]⟩ : Shape).Broadcasts ⟨2, ![R, C]⟩)
    (r : Fin R) (c : Fin C) : broadcastTo ⟨2, ![R, C]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ => rfl

/-- The host's vector-to-column broadcast. -/
theorem bcast_vec_col (x : (⟨1, ![R]⟩ : Shape).Idx → α) (h : (⟨1, ![R]⟩ : Shape).BroadcastsInDim ⟨2, ![R, 1]⟩ ![0])
    (r : Fin R) (u : Fin 1) : broadcastInDim ⟨2, ![R, 1]⟩ ![0] h x (ix2 r u) = x (ix1 r) := by
  refine broadcastInDim_apply _ h x (ix2 r u) (ix1 r) fun ax => ?_
  match ax with
  | ⟨0, _⟩ =>
    show r.val = if R = 1 then 0 else r.val
    split
    · have := r.isLt; omega
    · rfl

/-- The host's column-to-matrix broadcast. -/
theorem bcast_col_mat (x : (⟨2, ![R, 1]⟩ : Shape).Idx → α) (h : (⟨2, ![R, 1]⟩ : Shape).BroadcastsInDim ⟨2, ![R, C]⟩ ![0, 1])
    (r : Fin R) (c : Fin C) : broadcastInDim ⟨2, ![R, C]⟩ ![0, 1] h x (ix2 r c) = x (ix2 r (0 : Fin 1)) := by
  refine broadcastInDim_apply _ h x (ix2 r c) (ix2 r (0 : Fin 1)) fun ax => ?_
  match ax with
  | ⟨0, _⟩ =>
    show r.val = if R = 1 then 0 else r.val
    split
    · have := r.isLt; omega
    · rfl
  | ⟨1, _⟩ => rfl

/-- The host's vector-to-row broadcast. -/
theorem bcast_vec_row (x : (⟨1, ![C]⟩ : Shape).Idx → α) (h : (⟨1, ![C]⟩ : Shape).BroadcastsInDim ⟨2, ![1, C]⟩ ![1])
    (u : Fin 1) (c : Fin C) : broadcastInDim ⟨2, ![1, C]⟩ ![1] h x (ix2 u c) = x (ix1 c) := by
  refine broadcastInDim_apply _ h x (ix2 u c) (ix1 c) fun ax => ?_
  match ax with
  | ⟨0, _⟩ =>
    show c.val = if C = 1 then 0 else c.val
    split
    · have := c.isLt; omega
    · rfl

/-- The host's row-to-matrix broadcast. -/
theorem bcast_row_mat (x : (⟨2, ![1, C]⟩ : Shape).Idx → α) (h : (⟨2, ![1, C]⟩ : Shape).BroadcastsInDim ⟨2, ![R, C]⟩ ![0, 1])
    (r : Fin R) (c : Fin C) : broadcastInDim ⟨2, ![R, C]⟩ ![0, 1] h x (ix2 r c) = x (ix2 (0 : Fin 1) c) := by
  refine broadcastInDim_apply _ h x (ix2 r c) (ix2 (0 : Fin 1) c) fun ax => ?_
  match ax with
  | ⟨0, _⟩ => rfl
  | ⟨1, _⟩ =>
    show c.val = if C = 1 then 0 else c.val
    split
    · have := c.isLt; omega
    · rfl

/-! ## A matrix product -/

/-- A plain rows-by-columns contraction, whatever record names its dimension numbers: at `(i, j)` the sum over the
    contracted shape's one coordinate is the sum over `k` of `l (i, k) · r (k, j)`. The record's index maps are taken
    as hypotheses (each closes by evaluation at a literal record). -/
theorem dot_sum (d : DotDims ⟨2, ![R, K]⟩ ⟨2, ![K, C]⟩ ⟨2, ![R, C]⟩)
    (hlc : d.lhsContracting = [1]) (hrc : d.rhsContracting = [0]) (hr : d.contr.rank = 1)
    (hs : d.contr.size ⟨0, by omega⟩ = K)
    (hl0 : ∀ j k, (d.lhsIdx j k 0).val = (j 0).val) (hr1 : ∀ j k, (d.rhsIdx j k 1).val = (j 1).val)
    (l : (⟨2, ![R, K]⟩ : Shape).Idx → EReal) (r : (⟨2, ![K, C]⟩ : Shape).Idx → EReal) (i : Fin R) (j : Fin C) :
    ∑ k : d.contr.Idx, l (d.lhsIdx (ix2 i j) k) * r (d.rhsIdx (ix2 i j) k) = ∑ k : Fin K, l (ix2 i k) * r (ix2 k j) := by
  rw [← Equiv.sum_comp (contrEquiv1 d K hr hs).symm]
  refine Finset.sum_congr rfl fun k _ => ?_
  have el : d.lhsIdx (ix2 i j) ((contrEquiv1 d K hr hs).symm k) = ix2 i k := by
    funext a; apply Fin.ext
    match a with
    | ⟨0, _⟩ => exact hl0 _ _
    | ⟨1, _⟩ => exact (d.lhsIdx_val_of_single hlc _ _).trans (contrEquiv1_symm_val d K hr hs k)
  have er : d.rhsIdx (ix2 i j) ((contrEquiv1 d K hr hs).symm k) = ix2 k j := by
    funext a; apply Fin.ext
    match a with
    | ⟨0, _⟩ => exact (d.rhsIdx_val_of_single hrc _ _).trans (contrEquiv1_symm_val d K hr hs k)
    | ⟨1, _⟩ => exact hr1 _ _
  rw [el, er]

/-- The host's matrix product at `(i, j)`. -/
theorem host_dot {φ₁ φ₂ : FTy} (d : DotDims ⟨2, ![R, K]⟩ ⟨2, ![K, C]⟩ ⟨2, ![R, C]⟩)
    (hlc : d.lhsContracting = [1]) (hrc : d.rhsContracting = [0]) (hr : d.contr.rank = 1)
    (hs : d.contr.size ⟨0, by omega⟩ = K)
    (hl0 : ∀ j k, (d.lhsIdx j k 0).val = (j 0).val) (hr1 : ∀ j k, (d.rhsIdx j k 1).val = (j 1).val)
    (l : FVec Ideal ⟨2, ![R, K]⟩ φ₁) (r : FVec Ideal ⟨2, ![K, C]⟩ φ₂) (i : Fin R) (j : Fin C) :
    Host.dotGeneral d none l r (ix2 i j) = ∑ k : Fin K, l (ix2 i k) * r (ix2 k j) :=
  (Ideal.dotGeneral_apply d none .single l r (ix2 i j)).trans (dot_sum d hlc hrc hr hs hl0 hr1 l r i j)

/-- The kernel's matrix product into a zero accumulator at `(i, j)`. -/
theorem vec_matmul {φ₁ φ₂ : FTy} (d : DotDims ⟨2, ![R, K]⟩ ⟨2, ![K, C]⟩ ⟨2, ![R, C]⟩)
    (hlc : d.lhsContracting = [1]) (hrc : d.rhsContracting = [0]) (hr : d.contr.rank = 1)
    (hs : d.contr.size ⟨0, by omega⟩ = K)
    (hl0 : ∀ j k, (d.lhsIdx j k 0).val = (j 0).val) (hr1 : ∀ j k, (d.rhsIdx j k 1).val = (j 1).val)
    (l : FVec Ideal ⟨2, ![R, K]⟩ φ₁) (r : FVec Ideal ⟨2, ![K, C]⟩ φ₂) (i : Fin R) (j : Fin C) :
    matmul d none l r (constant ⟨2, ![R, C]⟩ .f32 0x00000000#32) (ix2 i j) = ∑ k : Fin K, l (ix2 i k) * r (ix2 k j) :=
  (Ideal.matmul_constant_zero_apply d none l r (ix2 i j)).trans (dot_sum d hlc hrc hr hs hl0 hr1 l r i j)

end Cert.Enc.Ops

end
-- ==== Proof.RefValue.lean ====
/-
  The reference program's result, read row by row.

  The generated run of the reference states its result as a composition of whole-array operations of the three
  argument arrays. Here each named intermediate array of that composition is read at an index: the logits of the
  first soft assignment (in the long form, with the row's own mean square subtracted), their exponentials about the
  row's maximum, the latent row they mix, the second logits, their exponentials, the reconstruction's difference
  from the input — and the result at row `r` is the long form of the row function of row `r` of the first
  argument and the two weight matrices.
-/
import proofs.«155095_j67551245631803_2_alg».proof.Proof.Gen.ReferenceIdeal.Run
import proofs.«155095_j67551245631803_2_alg».proof.Proof.Algebra
import proofs.«155095_j67551245631803_2_alg».proof.Proof.Ops

noncomputable section

namespace Cert.Enc.Ref

open Cert.ReferenceIdeal Cert.ReferenceIdeal.Gen Cert.ReferenceIdeal.Value
open Idealize.ShloMosaic Idealize.ShloMosaic.ValueIdx Idealize.ShloMosaic.TcCoe Idealize.SL.Sem
open Cert.Enc Cert.Enc.Ops
open scoped BigOperators

variable [Cert.ReferenceIdeal.Facts]

/-! ## The operations at the reference's shapes -/

theorem dotA (l : FVec Ideal S8192x1024 .f32) (r : FVec Ideal S1024x2048 .f32) (i : Fin 8192) (j : Fin 2048) :
    Host.dotGeneral dot_S8192x1024_S1024x2048_S8192x2048_1_0_0_1_n_n none l r (ix2 i j) = ∑ k : Fin 1024, l (ix2 i k) * r (ix2 k j) :=
  host_dot _ rfl rfl rfl rfl (fun _ _ => rfl) (fun _ _ => rfl) l r i j

theorem dotB (l : FVec Ideal S8192x2048 .f32) (r : FVec Ideal S2048x512 .f32) (i : Fin 8192) (j : Fin 512) :
    Host.dotGeneral dot_S8192x2048_S2048x512_S8192x512_1_0_0_1_n_n none l r (ix2 i j) = ∑ k : Fin 2048, l (ix2 i k) * r (ix2 k j) :=
  host_dot _ rfl rfl rfl rfl (fun _ _ => rfl) (fun _ _ => rfl) l r i j

theorem dotC (l : FVec Ideal S8192x512 .f32) (r : FVec Ideal S512x2048 .f32) (i : Fin 8192) (j : Fin 2048) :
    Host.dotGeneral dot_S8192x512_S512x2048_S8192x2048_1_0_0_1_n_n none l r (ix2 i j) = ∑ k : Fin 512, l (ix2 i k) * r (ix2 k j) :=
  host_dot _ rfl rfl rfl rfl (fun _ _ => rfl) (fun _ _ => rfl) l r i j

theorem dotD (l : FVec Ideal S8192x2048 .f32) (r : FVec Ideal S2048x1024 .f32) (i : Fin 8192) (j : Fin 1024) :
    Host.dotGeneral dot_S8192x2048_S2048x1024_S8192x1024_1_0_0_1_n_n none l r (ix2 i j) = ∑ k : Fin 2048, l (ix2 i k) * r (ix2 k j) :=
  host_dot _ rfl rfl rfl rfl (fun _ _ => rfl) (fun _ _ => rfl) l r i j

theorem bS_mat (x : FVec Ideal S_ .f32) (r : Fin 8192) (k : Fin 2048) :
    broadcastInDim S8192x2048 ![] bcast_S_S8192x2048 x (ix2 r k) = x ix0 := broadcastInDim_scalar_apply _ x _
theorem bS_col (x : FVec Ideal S_ .f32) (r : Fin 8192) (u : Fin 1) :
    broadcastInDim S8192x1 ![] bcast_S_S8192x1 x (ix2 r u) = x ix0 := broadcastInDim_scalar_apply _ x _
theorem bS_vecK (x : FVec Ideal S_ .f32) (k : Fin 2048) :
    broadcastInDim S2048 ![] bcast_S_S2048 x (ix1 k) = x ix0 := broadcastInDim_scalar_apply _ x _
theorem bS_vecR (x : FVec Ideal S_ .f32) (r : Fin 8192) :
    broadcastInDim S8192 ![] bcast_S_S8192 x (ix1 r) = x ix0 := broadcastInDim_scalar_apply _ x _
theorem bCol (x : FVec Ideal S8192 .f32) (r : Fin 8192) (u : Fin 1) :
    broadcastInDim S8192x1 ![0] bcast_S8192_S8192x1_0 x (ix2 r u) = x (ix1 r) := bcast_vec_col x _ r u
theorem bColMat (x : FVec Ideal S8192x1 .f32) (r : Fin 8192) (k : Fin 2048) :
    broadcastInDim S8192x2048 ![0, 1] bcast_S8192x1_S8192x2048_0_1 x (ix2 r k) = x (ix2 r (0 : Fin 1)) := bcast_col_mat x _ r k
theorem bRow (x : FVec Ideal S2048 .f32) (u : Fin 1) (k : Fin 2048) :
    broadcastInDim S1x2048 ![1] bcast_S2048_S1x2048_1 x (ix2 u k) = x (ix1 k) := bcast_vec_row x _ u k
theorem bRowMat (x : FVec Ideal S1x2048 .f32) (r : Fin 8192) (k : Fin 2048) :
    broadcastInDim S8192x2048 ![0, 1] bcast_S1x2048_S8192x2048_0_1 x (ix2 r k) = x (ix2 (0 : Fin 1) k) := bcast_row_mat x _ r k

theorem sumD (x : FVec Ideal S8192x1024 .f32) (init : FVec Ideal S_ .f32) (r : Fin 8192) :
    Host.reduceAdd x init reducesTo_S8192x1024_S8192_d1 h_S_ (ix1 r) = init ix0 + ∑ k : Fin 1024, x (ix2 r k) := host_rowSum x init _ _ r
theorem sumK (x : FVec Ideal S8192x2048 .f32) (init : FVec Ideal S_ .f32) (r : Fin 8192) :
    Host.reduceAdd x init reducesTo_S8192x2048_S8192_d1 h_S_ (ix1 r) = init ix0 + ∑ k : Fin 2048, x (ix2 r k) := host_rowSum x init _ _ r
theorem sumE (x : FVec Ideal S8192x512 .f32) (init : FVec Ideal S_ .f32) (r : Fin 8192) :
    Host.reduceAdd x init reducesTo_S8192x512_S8192_d1 h_S_ (ix1 r) = init ix0 + ∑ k : Fin 512, x (ix2 r k) := host_rowSum x init _ _ r
theorem colD (x : FVec Ideal S1024x2048 .f32) (init : FVec Ideal S_ .f32) (k : Fin 2048) :
    Host.reduceAdd x init reducesTo_S1024x2048_S2048_d0 h_S_ (ix1 k) = init ix0 + ∑ d : Fin 1024, x (ix2 d k) := host_colSum x init _ _ k
theorem colE (x : FVec Ideal S512x2048 .f32) (init : FVec Ideal S_ .f32) (k : Fin 2048) :
    Host.reduceAdd x init reducesTo_S512x2048_S2048_d0 h_S_ (ix1 k) = init ix0 + ∑ j : Fin 512, x (ix2 j k) := host_colSum x init _ _ k
theorem maxK (x : FVec Ideal S8192x2048 .f32) (init : FVec Ideal S_ .f32) (r : Fin 8192) :
    Host.reduce FloatOps.maximumf x init reducesTo_S8192x2048_S8192_d1 h_S_ (ix1 r)
      = (Finset.univ : Finset (Fin 2048)).fold max (init ix0) (fun k => x (ix2 r k)) := host_rowMax x init _ _ r

variable (V0 : Valuation τ sig (Elt Ideal))

/-- The three argument arrays. -/
abbrev a0 : S8192x1024.Idx → EReal := V0 (Proc.devRef .tc main_arg0)
abbrev a1 : S2048x1024.Idx → EReal := V0 (Proc.devRef .tc main_arg1)
abbrev a2 : S512x2048.Idx → EReal := V0 (Proc.devRef .tc main_arg2)

/-- Row `r` of the first argument, and the two weight matrices by coordinates. -/
abbrev xrow (r : Fin 8192) : Fin 1024 → EReal := fun d => a0 V0 (ix2 r d)
abbrev w1 : Fin 2048 → Fin 1024 → EReal := fun k d => a1 V0 (ix2 k d)
abbrev w2 : Fin 512 → Fin 2048 → EReal := fun j k => a2 V0 (ix2 j k)

/-- The latent row of row `r`, in the long form. -/
abbrev latL (r : Fin 8192) : Fin 512 → EReal :=
  mix (smax (logLong β cD nD (xrow V0 r) (w1 V0))) (fun k j => w2 V0 j k)

/-! ## The named intermediate arrays at an index -/

/-- The first weight matrix transposed. -/
theorem v0_apply (d : Fin 1024) (k : Fin 2048) : (res_main_v0 V0 : S1024x2048.Idx → EReal) (ix2 d k) = a1 V0 (ix2 k d) :=
  transpose_ix2_apply _ _ d k

/-- The second weight matrix transposed. -/
theorem v1_apply (k : Fin 2048) (j : Fin 512) : (res_main_v1 V0 : S2048x512.Idx → EReal) (ix2 k j) = a2 V0 (ix2 j k) :=
  transpose_ix2_apply _ _ k j

/-- … and transposed back. -/
theorem v33_apply (j : Fin 512) (k : Fin 2048) : (res_main_v33 V0 : S512x2048.Idx → EReal) (ix2 j k) = a2 V0 (ix2 j k) := by
  unfold res_main_v33
  rw [transpose_ix2_apply, v1_apply]

/-- The first logits, long form. -/
theorem v20_apply (r : Fin 8192) (k : Fin 2048) :
    (res_main_v20 V0 : S8192x2048.Idx → EReal) (ix2 r k) = logLong β cD nD (xrow V0 r) (w1 V0) k := by
  unfold res_main_v20 logLong
  simp only [mulf_apply, subf_apply, dotA, v0_apply]
  rw [bS_mat, bS_mat]
  rw [bColMat, hostDivf_apply, bCol, bS_col, sumD]
  rw [bRowMat, bRow, hostDivf_apply, bS_vecK, colD]
  simp only [mulf_apply, v0_apply, constant_apply, Ideal.ofBits_zero_f32, zero_add]

/-- Their exponentials about the row's maximum. -/
theorem v27_apply (r : Fin 8192) (k : Fin 2048) :
    (res_main_v27 V0 : S8192x2048.Idx → EReal) (ix2 r k)
      = Ideal.exp (logLong β cD nD (xrow V0 r) (w1 V0) k
          - max ⊥ ((Finset.univ : Finset (Fin 2048)).fold max ⊥ (logLong β cD nD (xrow V0 r) (w1 V0)))) := by
  unfold res_main_v27
  rw [hostExp_apply, subf_apply, bColMat, bCol, maximumf_apply, bS_vecR, maxK]
  simp only [v20_apply, constant_apply, ofBits_neg_inf]

/-- The latent row. -/
theorem v32_apply (r : Fin 8192) (j : Fin 512) :
    (res_main_v32 V0 : S8192x512.Idx → EReal) (ix2 r j) = latL V0 r j := by
  unfold res_main_v32 latL mix smax
  rw [dotB]
  show (_ : EReal) = _
  refine Finset.sum_congr rfl fun x _ => ?_
  rw [hostDivf_apply, bColMat, bCol, sumK, v27_apply, v1_apply]
  simp only [v27_apply, constant_apply, Ideal.ofBits_zero_f32, zero_add]

/-- The second logits, long form. -/
theorem v52_apply (r : Fin 8192) (k : Fin 2048) :
    (res_main_v52 V0 : S8192x2048.Idx → EReal) (ix2 r k) = logLong β cE nE (latL V0 r) (fun k j => w2 V0 j k) k := by
  unfold res_main_v52 logLong
  simp only [mulf_apply, subf_apply, dotC, v32_apply, v33_apply]
  rw [bS_mat, bS_mat]
  rw [bColMat, hostDivf_apply, bCol, bS_col, sumE]
  rw [bRowMat, bRow, hostDivf_apply, bS_vecK, colE]
  simp only [mulf_apply, v32_apply, v33_apply, constant_apply, Ideal.ofBits_zero_f32, zero_add]

/-- Their exponentials about the row's maximum. -/
theorem v59_apply (r : Fin 8192) (k : Fin 2048) :
    (res_main_v59 V0 : S8192x2048.Idx → EReal) (ix2 r k)
      = Ideal.exp (logLong β cE nE (latL V0 r) (fun k j => w2 V0 j k) k
          - max ⊥ ((Finset.univ : Finset (Fin 2048)).fold max ⊥ (logLong β cE nE (latL V0 r) (fun k j => w2 V0 j k)))) := by
  unfold res_main_v59
  rw [hostExp_apply, subf_apply, bColMat, bCol, maximumf_apply, bS_vecR, maxK]
  simp only [v52_apply, constant_apply, ofBits_neg_inf]

/-- The reconstruction less the input. -/
theorem v66_apply (r : Fin 8192) (d : Fin 1024) :
    (res_main_v66 V0 : S8192x1024.Idx → EReal) (ix2 r d)
      = mix (smax (logLong β cE nE (latL V0 r) (fun k j => w2 V0 j k))) (w1 V0) d - xrow V0 r d := by
  unfold res_main_v66 mix smax
  rw [subf_apply, dotD]
  show (_ : EReal) - _ = _
  refine congrArg (· - _) (Finset.sum_congr rfl fun x _ => ?_)
  rw [hostDivf_apply, bColMat, bCol, sumK, v59_apply, transpose_ix2_apply, v0_apply]
  simp only [v59_apply, constant_apply, Ideal.ofBits_zero_f32, zero_add]

/-- THE RESULT at row `r`: the long form of the row function of row `r`. -/
theorem result_apply (r : Fin 8192) :
    (Host.divf (Host.reduceAdd (mulf (res_main_v66 V0) (res_main_v66 V0)) (constant S_ .f32 0x00000000#32) reducesTo_S8192x1024_S8192_d1 h_S_)
        (broadcastInDim S8192 ![] bcast_S_S8192 (constant S_ .f32 0x44800000#32)) : S8192.Idx → EReal) (ix1 r)
      = encLong β cD nD cE nE (w1 V0) (w2 V0) (xrow V0 r) := by
  unfold encLong mse
  rw [hostDivf_apply, bS_vecR, sumD]
  simp only [mulf_apply, v66_apply, constant_apply, Ideal.ofBits_zero_f32, zero_add]

/-- The result array as a whole. -/
theorem result_eq :
    (Host.divf (Host.reduceAdd (mulf (res_main_v66 V0) (res_main_v66 V0)) (constant S_ .f32 0x00000000#32) reducesTo_S8192x1024_S8192_d1 h_S_)
        (broadcastInDim S8192 ![] bcast_S_S8192 (constant S_ .f32 0x44800000#32)) : S8192.Idx → EReal)
      = fun i => encLong β cD nD cE nE (w1 V0) (w2 V0) (xrow V0 (i 0)) := by
  funext i
  rw [eq_ix1 i]
  exact result_apply V0 (i 0)

end Cert.Enc.Ref

end
-- ==== Proof.KernelArray.lean ====
/- The kernel program from its run to the whole result array, with no arithmetic:
   what each window's block is in terms of the arrays the region finds, the output array assembled from the
   blocks the grid points write back, and the run re-posted with the result array named by one function of the row. -/
import proofs.«155095_j67551245631803_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Enc.KArr

open Cert.KernelIdeal Cert.KernelIdeal.Gen

variable (m : (ℓ : Loc nD τ sig) → Buf (Elt Ideal) ℓ) (ρ : Dev nD → PrngReg)

/-! ## Rows: grid point `t` owns rows `256 t … 256 t + 255` of the 8192 -/

/-- A grid point is one of 32. -/
theorem point_lt (t : Fin cfg0.N) : t.val < 32 := lt_of_lt_of_eq t.isLt N_0

/-- Row `p` of point `t`'s block is a row of the array. -/
theorem row_lt (t : Fin cfg0.N) (p : Fin 256) : 256 * t.val + p.val < 8192 := by
  have ht := point_lt t
  have hp := p.isLt
  omega

/-- The row of the array that row `p` of point `t`'s block is. -/
abbrev row (t : Fin cfg0.N) (p : Fin 256) : Fin 8192 := ⟨256 * t.val + p.val, row_lt t p⟩

/-! ## The index maps, decided over the 32 grid points -/

/-- The row-blocked windows (the input rows and the output) sit at block `(t, 0)`; every other window at `(0, 0)`. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-! ## The input blocks -/

/-- Window 0's block at point `t` is rows `256 t … 256 t + 255` of the first argument. -/
theorem iblk0_apply (c : Dev nD) (t : Fin cfg0.N) (p : Fin 256) (d : Fin 1024) :
    (iblk m c 0 t : Vec Ideal S256x1024 .f32) (ix2 p d)
      = (m ((c : Thread nD τ).loc main_arg0) : S8192x1024.Idx → Elt Ideal .f32) (ix2 (row t p) d) := by
  obtain ⟨⟨e0, e1⟩, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 1024 + 1 * d.val = d.val; rw [e1]; omega

/-- Window 1's block at every point is the whole array the region finds in `main_v10`. -/
theorem iblk1_eq (c : Dev nD) (t : Fin cfg0.N) :
    (iblk m c 1 t : Vec Ideal S2048x1024 .bf16) = (V m c main_v10 : S2048x1024.Idx → Elt Ideal .bf16) := by
  obtain ⟨-, ⟨e0, e1⟩, -⟩ := idx_facts t
  funext j
  unfold iblk
  rw [View.read_apply]
  show V m c main_v10 _ = V m c main_v10 j
  congr 1
  funext a
  apply Fin.ext
  match a with
  | ⟨0, _⟩ => show win0_1.index t (0 : Fin 2) * 2048 + 1 * (j 0).val = (j 0).val; rw [e0]; omega
  | ⟨1, _⟩ => show win0_1.index t (1 : Fin 2) * 1024 + 1 * (j 1).val = (j 1).val; rw [e1]; omega

/-- Window 2's block at every point is the whole array the region finds in `main_v11`. -/
theorem iblk2_eq (c : Dev nD) (t : Fin cfg0.N) :
    (iblk m c 2 t : Vec Ideal S512x2048 .bf16) = (V m c main_v11 : S512x2048.Idx → Elt Ideal .bf16) := by
  obtain ⟨-, -, ⟨e0, e1⟩, -⟩ := idx_facts t
  funext j
  unfold iblk
  rw [View.read_apply]
  show V m c main_v11 _ = V m c main_v11 j
  congr 1
  funext a
  apply Fin.ext
  match a with
  | ⟨0, _⟩ => show win0_2.index t (0 : Fin 2) * 512 + 1 * (j 0).val = (j 0).val; rw [e0]; omega
  | ⟨1, _⟩ => show win0_2.index t (1 : Fin 2) * 2048 + 1 * (j 1).val = (j 1).val; rw [e1]; omega

/-- Window 3's block at every point is the whole array the region finds in `main_v13`. -/
theorem iblk3_eq (c : Dev nD) (t : Fin cfg0.N) :
    (iblk m c 3 t : Vec Ideal S1024x2048 .bf16) = (V m c main_v13 : S1024x2048.Idx → Elt Ideal .bf16) := by
  obtain ⟨-, -, -, ⟨e0, e1⟩, -⟩ := idx_facts t
  funext j
  unfold iblk
  rw [View.read_apply]
  show V m c main_v13 _ = V m c main_v13 j
  congr 1
  funext a
  apply Fin.ext
  match a with
  | ⟨0, _⟩ => show win0_3.index t (0 : Fin 2) * 1024 + 1 * (j 0).val = (j 0).val; rw [e0]; omega
  | ⟨1, _⟩ => show win0_3.index t (1 : Fin 2) * 2048 + 1 * (j 1).val = (j 1).val; rw [e1]; omega

/-- Window 4's block at every point is the whole array the region finds in `main_v15`. -/
theorem iblk4_eq (c : Dev nD) (t : Fin cfg0.N) :
    (iblk m c 4 t : Vec Ideal S2048x512 .bf16) = (V m c main_v15 : S2048x512.Idx → Elt Ideal .bf16) := by
  obtain ⟨-, -, -, -, ⟨e0, e1⟩, -⟩ := idx_facts t
  funext j
  unfold iblk
  rw [View.read_apply]
  show V m c main_v15 _ = V m c main_v15 j
  congr 1
  funext a
  apply Fin.ext
  match a with
  | ⟨0, _⟩ => show win0_4.index t (0 : Fin 2) * 2048 + 1 * (j 0).val = (j 0).val; rw [e0]; omega
  | ⟨1, _⟩ => show win0_4.index t (1 : Fin 2) * 512 + 1 * (j 1).val = (j 1).val; rw [e1]; omega

/-- Window 5's block at every point is the whole array the region finds in `main_v4`. -/
theorem iblk5_eq (c : Dev nD) (t : Fin cfg0.N) :
    (iblk m c 5 t : Vec Ideal S1x2048 .f32) = (V m c main_v4 : S1x2048.Idx → Elt Ideal .f32) := by
  obtain ⟨-, -, -, -, -, ⟨e0, e1⟩, -⟩ := idx_facts t
  funext j
  unfold iblk
  rw [View.read_apply]
  show V m c main_v4 _ = V m c main_v4 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 2048 + 1 * (j 1).val = (j 1).val; rw [e1]; omega

/-- Window 6's block at every point is the whole array the region finds in `main_v9`. -/
theorem iblk6_eq (c : Dev nD) (t : Fin cfg0.N) :
    (iblk m c 6 t : Vec Ideal S1x2048 .f32) = (V m c main_v9 : S1x2048.Idx → Elt Ideal .f32) := by
  obtain ⟨-, -, -, -, -, -, ⟨e0, e1⟩, -⟩ := idx_facts t
  funext j
  unfold iblk
  rw [View.read_apply]
  show V m c main_v9 _ = V m c main_v9 j
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 2048 + 1 * (j 1).val = (j 1).val; rw [e1]; omega

/-! ## The output array, from the blocks the grid points write back -/

/-- An index of the output array is in point `t`'s block iff each coordinate is in the block's range on its axis. -/
theorem mem_blk7 (t : Fin cfg0.N) (i : S8192x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v16).slice (win0_7.rect t)).set ↔ _
  rw [View.set_slice_whole, Rect.mem_set_unit]
  exact Iff.rfl

/-- A block whose row `p` holds `g` at row `256 t + p` is, written back at point `t`, block `t` of the column `g`. -/
theorem cut7_eq (t : Fin cfg0.N) (X : Vec Ideal S256x1 .f32) (g : Fin 8192 → EReal)
    (h : ∀ p : Fin 256, X (ix2 p (0 : Fin 1)) = g (row t p)) :
    (cfg0.win 7).cut (grid0.coords t) X = ((cfg0.win 7).blk t).view.read (Elt Ideal) (fun i : S8192x1.Idx => g (i 0)) := by
  obtain ⟨-, -, -, -, -, -, -, ⟨e0, e1⟩⟩ := idx_facts t
  refine funext fun (j : S256x1.Idx) => ?_
  rw [View.read_apply]
  obtain ⟨p, q, rfl⟩ : ∃ (p : Fin 256) (q : Fin 1), j = ix2 p q := ⟨j 0, j 1, eq_ix2 j⟩
  obtain rfl : q = 0 := Subsingleton.elim _ _
  show X (ix2 p 0) = g ((((cfg0.win 7).blk t).view.emb (ix2 p 0)) 0)
  refine (h p).trans (congrArg g (Fin.ext ?_))
  show 256 * t.val + p.val = win0_7.index t (0 : Fin 2) * 256 + 1 * p.val
  rw [e0]; omega

/-- Every row of the output array is in the block of the point `row / 256`. -/
theorem cover7 (i : S8192x1.Idx) : ∃ t : Fin cfg0.N, (cfg0.win 7).flush t = true ∧ i ∈ ((cfg0.win 7).blk t).view.set := by
  have hi0 : (i 0).val < 8192 := (i 0).isLt
  have hi1 : (i 1).val < 1 := (i 1).isLt
  have hN : cfg0.N = 32 := N_0
  let t : Fin cfg0.N := ⟨(i 0).val / 256, by rw [hN]; omega⟩
  obtain ⟨-, -, -, -, -, -, -, ⟨e0, e1⟩⟩ := idx_facts t
  have ht : t.val = (i 0).val / 256 := rfl
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 1 ≤ (i 1).val ∧ (i 1).val < win0_7.index t (1 : Fin 2) * 1 + 1; rw [e1]; omega

/-- THE OUTPUT ARRAY after the run: if at every point `t` row `p` of what the body leaves in the output block is
    `G` at row `256 t + p`, the array ends as the column `G`. -/
theorem final7 (G : Dev nD → Fin 8192 → EReal)
    (hG : ∀ (c : Dev nD) (t : Fin cfg0.N) (p : Fin 256),
      out0_7 (iblk m c 0 t) (iblk m c 1 t) (iblk m c 2 t) (iblk m c 3 t) (iblk m c 4 t) (iblk m c 5 t) (iblk m c 6 t) (ix2 p (0 : Fin 1)) = G c (row t p))
    (c : Dev nD) : (dats m 0 c).arrAt 7 cfg0.N = (fun i : S8192x1.Idx => G c (i 0)) :=
  (dats m 0 c).arrAt_eq_of_cover 7 (fun i : S8192x1.Idx => G c (i 0))
    (fun t _ => by
      show (cfg0.win 7).cut (grid0.coords t) ((dats m 0 c).after 7 t) = _
      rw [after0_7]
      exact cut7_eq t _ (G c) (hG c t))
    cover7

/-! ## The run -/

/-- The result buffer after the host operation that follows the region: the output array, reshaped to a vector. -/
theorem tail_v17 (c : Dev nD) :
    Pipeline.afterTail₀ cfgs (dats m) 0 (V0 m) [hostOps1] c main_v17
      = shapeCast S8192 ((dats m 0 c).arrAt 7 cfg0.N) shapeCasts_S8192x1_S8192 := by
  unfold Pipeline.afterTail₀
  show StableHlo.after hostOps1 _ (Proc.devRef .tc main_v17) = _
  after_results
  exact congrArg (fun A => shapeCast S8192 A shapeCasts_S8192x1_S8192)
    (Pipeline.withArrays_arr spec0 launch0.win.arr_inj c _ _ 7)

/-- A column of 8192 rows reshaped to a vector reads the same function of the row. -/
theorem reshape_col (g : Fin 8192 → EReal) :
    shapeCast S8192 (fun i : S8192x1.Idx => g (i 0)) shapeCasts_S8192x1_S8192 = (fun i : S8192.Idx => g (i 0)) := by
  funext j
  obtain ⟨r, rfl⟩ : ∃ r : Fin 8192, j = ix1 r := ⟨j 0, eq_ix1 j⟩
  refine (shapeCast_apply _ _ (ix1 r) (ix2 r (0 : Fin 1)) ?_).trans rfl
  rw [Shape.rowMajor_val_two, Shape.rowMajor_val_one]
  show r.val * 1 + 0 = r.val
  omega

/-- THE RUN: every weakly fair execution of the program terminates with the result vector at `G` of the row — for any
    `G` that the body's output block realizes row by row at every grid point — and the three arguments as launched. -/
theorem run (G : Dev nD → Fin 8192 → EReal)
    (hG : ∀ (c : Dev nD) (t : Fin cfg0.N) (p : Fin 256),
      out0_7 (iblk m c 0 t) (iblk m c 1 t) (iblk m c 2 t) (iblk m c 3 t) (iblk m c 4 t) (iblk m c 5 t) (iblk m c 6 t) (ix2 p (0 : Fin 1)) = G c (row t p)) :
    θ_run defs (onTc (τ := τ) (main (F := Ideal))) ⟨m, fun _ => 0, ρ⟩ (fun r => ∀ c : Dev nD,
      r.2.mem ((c.tc : Thread nD τ).loc main_v17) = (fun i : S8192.Idx => G c (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v17 (Pipeline.mem_restRefs_of main_v17 (by decide) (by decide))).trans
        ((tail_v17 m c).trans ((congrArg (fun A => shapeCast S8192 A shapeCasts_S8192x1_S8192) (final7 m G hG c)).trans (reshape_col (G c)))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## What the region finds in each staged array: the host operations before it, composed -/

/-- The second argument (2048 × 1024) as launched. -/
abbrev A1 (c : Dev nD) : FVec Ideal S2048x1024 .f32 := m ((c : Thread nD τ).loc main_arg1)
/-- The third argument (512 × 2048) as launched. -/
abbrev A2 (c : Dev nD) : FVec Ideal S512x2048 .f32 := m ((c : Thread nD τ).loc main_arg2)

/-- The second argument, rounded to the narrower format. -/
theorem V_main_v10 (c : Dev nD) :
    (V m c main_v10 : FVec Ideal S2048x1024 .bf16) = truncf .bf16 (A1 m c) bitsLt_bf16_f32 := by
  show StableHlo.after hostOps0 (fun b => m (c, b)) (Proc.devRef .tc main_v10) = _
  after_results

/-- The third argument, rounded to the narrower format. -/
theorem V_main_v11 (c : Dev nD) :
    (V m c main_v11 : FVec Ideal S512x2048 .bf16) = truncf .bf16 (A2 m c) bitsLt_bf16_f32 := by
  show StableHlo.after hostOps0 (fun b => m (c, b)) (Proc.devRef .tc main_v11) = _
  after_results

/-- The second argument transposed, then rounded. -/
theorem V_main_v13 (c : Dev nD) :
    (V m c main_v13 : FVec Ideal S1024x2048 .bf16)
      = truncf .bf16 (transpose S1024x2048 [1, 0] (A1 m c) transposes_S2048x1024_S1024x2048_1_0) bitsLt_bf16_f32 := by
  show StableHlo.after hostOps0 (fun b => m (c, b)) (Proc.devRef .tc main_v13) = _
  after_results

/-- The third argument transposed, then rounded. -/
theorem V_main_v15 (c : Dev nD) :
    (V m c main_v15 : FVec Ideal S2048x512 .bf16)
      = truncf .bf16 (transpose S2048x512 [1, 0] (A2 m c) transposes_S512x2048_S2048x512_1_0) bitsLt_bf16_f32 := by
  show StableHlo.after hostOps0 (fun b => m (c, b)) (Proc.devRef .tc main_v15) = _
  after_results

/-- The mean of squares of the second argument along its rows' axis (the sum over axis 1, divided by the constant), as a row. -/
theorem V_main_v4 (c : Dev nD) :
    (V m c main_v4 : FVec Ideal S1x2048 .f32)
      = shapeCast S1x2048
          (Host.divf
            (Host.reduceAdd (mulf (A1 m c) (A1 m c)) (constant (F := Ideal) S_ .f32 0x00000000#32) reducesTo_S2048x1024_S2048_d1 h_S_)
            (broadcastInDim S2048 ![] bcast_S_S2048 (constant (F := Ideal) S_ .f32 0x44800000#32)))
          shapeCasts_S2048_S1x2048 := by
  show StableHlo.after hostOps0 (fun b => m (c, b)) (Proc.devRef .tc main_v4) = _
  after_results
  rfl

/-- The mean of squares of the third argument along its columns' axis (the sum over axis 0, divided by the constant), as a row. -/
theorem V_main_v9 (c : Dev nD) :
    (V m c main_v9 : FVec Ideal S1x2048 .f32)
      = shapeCast S1x2048
          (Host.divf
            (Host.reduceAdd (mulf (A2 m c) (A2 m c)) (constant (F := Ideal) S_ .f32 0x00000000#32) reducesTo_S512x2048_S2048_d0 h_S_)
            (broadcastInDim S2048 ![] bcast_S_S2048 (constant (F := Ideal) S_ .f32 0x44000000#32)))
          shapeCasts_S2048_S1x2048 := by
  show StableHlo.after hostOps0 (fun b => m (c, b)) (Proc.devRef .tc main_v9) = _
  after_results
  rfl

/-! ## Each whole-array window's block, as the host operations' term of the arguments -/

theorem iblk1_val (c : Dev nD) (t : Fin cfg0.N) :
    (iblk m c 1 t : Vec Ideal S2048x1024 .bf16) = truncf .bf16 (A1 m c) bitsLt_bf16_f32 :=
  (iblk1_eq m c t).trans (V_main_v10 m c)

theorem iblk2_val (c : Dev nD) (t : Fin cfg0.N) :
    (iblk m c 2 t : Vec Ideal S512x2048 .bf16) = truncf .bf16 (A2 m c) bitsLt_bf16_f32 :=
  (iblk2_eq m c t).trans (V_main_v11 m c)

theorem iblk3_val (c : Dev nD) (t : Fin cfg0.N) :
    (iblk m c 3 t : Vec Ideal S1024x2048 .bf16)
      = truncf .bf16 (transpose S1024x2048 [1, 0] (A1 m c) transposes_S2048x1024_S1024x2048_1_0) bitsLt_bf16_f32 :=
  (iblk3_eq m c t).trans (V_main_v13 m c)

theorem iblk4_val (c : Dev nD) (t : Fin cfg0.N) :
    (iblk m c 4 t : Vec Ideal S2048x512 .bf16)
      = truncf .bf16 (transpose S2048x512 [1, 0] (A2 m c) transposes_S512x2048_S2048x512_1_0) bitsLt_bf16_f32 :=
  (iblk4_eq m c t).trans (V_main_v15 m c)

theorem iblk5_val (c : Dev nD) (t : Fin cfg0.N) :
    (iblk m c 5 t : Vec Ideal S1x2048 .f32)
      = shapeCast S1x2048
          (Host.divf
            (Host.reduceAdd (mulf (A1 m c) (A1 m c)) (constant (F := Ideal) S_ .f32 0x00000000#32) reducesTo_S2048x1024_S2048_d1 h_S_)
            (broadcastInDim S2048 ![] bcast_S_S2048 (constant (F := Ideal) S_ .f32 0x44800000#32)))
          shapeCasts_S2048_S1x2048 :=
  (iblk5_eq m c t).trans (V_main_v4 m c)

theorem iblk6_val (c : Dev nD) (t : Fin cfg0.N) :
    (iblk m c 6 t : Vec Ideal S1x2048 .f32)
      = shapeCast S1x2048
          (Host.divf
            (Host.reduceAdd (mulf (A2 m c) (A2 m c)) (constant (F := Ideal) S_ .f32 0x00000000#32) reducesTo_S512x2048_S2048_d0 h_S_)
            (broadcastInDim S2048 ![] bcast_S_S2048 (constant (F := Ideal) S_ .f32 0x44000000#32)))
          shapeCasts_S2048_S1x2048 :=
  (iblk6_eq m c t).trans (V_main_v9 m c)

end Cert.Enc.KArr

end
-- ==== Proof.KernelPay.lean ====
/-
  The kernel's body, read row by row.

  At one grid point the body holds 256 rows of the first argument and the whole of the staged operands: the two
  weight matrices (each in both orientations) and, as rows, the mean squares of their rows and columns. Its one
  store is a column of 256 numbers. The body's arithmetic is cut here into the blocks it is made of — the logits, the
  softmax of a block of logits, the two mixes, the mean squared error — each read at an index, and put back together:
  row `p` of the stored column is the short form of the row function of row `p` of the input block, once the staged
  operands are known to hold what the host operations before the region computed.
-/
import proofs.«155095_j67551245631803_2_alg».proof.Proof.Gen.KernelIdeal.Frame
import proofs.«155095_j67551245631803_2_alg».proof.Proof.Algebra
import proofs.«155095_j67551245631803_2_alg».proof.Proof.Ops

noncomputable section

namespace Cert.Enc.Ker

open Cert.KernelIdeal Cert.KernelIdeal.Gen
open Idealize.ShloMosaic Idealize.ShloMosaic.ValueIdx Idealize.ShloMosaic.TcCoe Idealize.SL.Sem
open Cert.Enc Cert.Enc.Ops
open scoped BigOperators

variable [Cert.KernelIdeal.Facts]

/-! ## The operations at the kernel's shapes -/

theorem mmA (l : FVec Ideal S256x1024 .bf16) (r : FVec Ideal S1024x2048 .bf16) (i : Fin 256) (j : Fin 2048) :
    matmul dot_S256x1024_S1024x2048_S256x2048_1_0_0_1_n_n none l r (constant S256x2048 .f32 0x00000000#32) (ix2 i j) = ∑ k : Fin 1024, l (ix2 i k) * r (ix2 k j) :=
  vec_matmul _ rfl rfl rfl rfl (fun _ _ => rfl) (fun _ _ => rfl) l r i j
theorem mmB (l : FVec Ideal S256x2048 .bf16) (r : FVec Ideal S2048x512 .bf16) (i : Fin 256) (j : Fin 512) :
    matmul dot_S256x2048_S2048x512_S256x512_1_0_0_1_n_n none l r (constant S256x512 .f32 0x00000000#32) (ix2 i j) = ∑ k : Fin 2048, l (ix2 i k) * r (ix2 k j) :=
  vec_matmul _ rfl rfl rfl rfl (fun _ _ => rfl) (fun _ _ => rfl) l r i j
theorem mmC (l : FVec Ideal S256x512 .bf16) (r : FVec Ideal S512x2048 .bf16) (i : Fin 256) (j : Fin 2048) :
    matmul dot_S256x512_S512x2048_S256x2048_1_0_0_1_n_n none l r (constant S256x2048 .f32 0x00000000#32) (ix2 i j) = ∑ k : Fin 512, l (ix2 i k) * r (ix2 k j) :=
  vec_matmul _ rfl rfl rfl rfl (fun _ _ => rfl) (fun _ _ => rfl) l r i j
theorem mmD (l : FVec Ideal S256x2048 .bf16) (r : FVec Ideal S2048x1024 .bf16) (i : Fin 256) (j : Fin 1024) :
    matmul dot_S256x2048_S2048x1024_S256x1024_1_0_0_1_n_n none l r (constant S256x1024 .f32 0x00000000#32) (ix2 i j) = ∑ k : Fin 2048, l (ix2 i k) * r (ix2 k j) :=
  vec_matmul _ rfl rfl rfl rfl (fun _ _ => rfl) (fun _ _ => rfl) l r i j

theorem bRowK (v : FVec Ideal S1x2048 .f32) (p : Fin 256) (k : Fin 2048) :
    broadcastTo S256x2048 v broadcasts_S1x2048_S256x2048 (ix2 p k) = v (ix2 (0 : Fin 1) k) := broadcastTo_1b_ab_apply v _ p k
theorem bColK (v : FVec Ideal S256x1 .f32) (p : Fin 256) (k : Fin 2048) :
    broadcastTo S256x2048 v broadcasts_S256x1_S256x2048 (ix2 p k) = v (ix2 p (0 : Fin 1)) := broadcastTo_col v _ p k
theorem castCol (x : FVec Ideal S256 .f32) (p : Fin 256) (u : Fin 1) :
    shapeCast S256x1 x shapeCasts_S256_S256x1 (ix2 p u) = x (ix1 p) := shapeCast_col x _ p u
theorem maxKk (src : FVec Ideal S256x2048 .f32) (p : Fin 256) :
    multiReduction .maximumf [1] S256 src 0xFF800000#32 reduces_S256x2048_S256 (.inl rfl) rfl (ix1 p)
      = (Finset.univ : Finset (Fin 2048)).fold max (Ideal.ofBits .f32 0xFF800000#32) (fun k => src (ix2 p k)) := vec_rowMax src _ _ _ _ p
theorem sumKk (src : FVec Ideal S256x2048 .f32) (p : Fin 256) :
    multiReduction .add [1] S256 src 0x00000000#32 reduces_S256x2048_S256 (.inl rfl) rfl (ix1 p) = ∑ k : Fin 2048, src (ix2 p k) := vec_rowSum src _ _ _ _ p
theorem sumDk (src : FVec Ideal S256x1024 .f32) (p : Fin 256) :
    multiReduction .add [1] S256 src 0x00000000#32 reduces_S256x1024_S256 (.inl rfl) rfl (ix1 p) = ∑ d : Fin 1024, src (ix2 p d) := vec_rowSum src _ _ _ _ p

/-! ## The blocks the body is made of -/

/-- A block of logits from a block of inner products `s`, a scale `c` and a row `n` of mean squares. -/
def logitsBlk (s : FVec Ideal S256x2048 .f32) (c : Ideal .f32) (n : FVec Ideal S1x2048 .f32) : FVec Ideal S256x2048 .f32 :=
  mulf (broadcast S256x2048 (Scalar.ofBits .f32 0x3A83126F#32))
    (subf (mulf s (broadcast S256x2048 c)) (broadcastTo S256x2048 n broadcasts_S1x2048_S256x2048))

/-- A block of logits less its rows' maxima, exponentiated. -/
def expBlk (a : FVec Ideal S256x2048 .f32) : FVec Ideal S256x2048 .f32 :=
  exp (subf a (broadcastTo S256x2048 (shapeCast S256x1 (maximumf (broadcast S256 (Scalar.ofBits .f32 0xFF800000#32))
    (multiReduction .maximumf [1] S256 a 0xFF800000#32 reduces_S256x2048_S256 (.inl rfl) rfl)) shapeCasts_S256_S256x1) broadcasts_S256x1_S256x2048))

/-- The softmax of a block of logits, row by row. -/
def smBlk (a : FVec Ideal S256x2048 .f32) : FVec Ideal S256x2048 .f32 :=
  divf (expBlk a) (broadcastTo S256x2048 (shapeCast S256x1
    (multiReduction .add [1] S256 (expBlk a) 0x00000000#32 reduces_S256x2048_S256 (.inl rfl) rfl) shapeCasts_S256_S256x1) broadcasts_S256x1_S256x2048)

/-- The mean squared difference of two blocks, row by row, as a column. -/
def mseBlk (y x : FVec Ideal S256x1024 .f32) : FVec Ideal S256x1 .f32 :=
  divf (shapeCast S256x1 (multiReduction .add [1] S256 (mulf (subf y x) (subf y x)) 0x00000000#32 reduces_S256x1024_S256 (.inl rfl) rfl) shapeCasts_S256_S256x1)
    (broadcast S256x1 (Scalar.ofBits .f32 0x44800000#32))

theorem logitsBlk_apply (s : FVec Ideal S256x2048 .f32) (c : Ideal .f32) (n : FVec Ideal S1x2048 .f32) (p : Fin 256) (k : Fin 2048) :
    logitsBlk s c n (ix2 p k) = β * (s (ix2 p k) * c - n (ix2 (0 : Fin 1) k)) := by
  unfold logitsBlk
  simp only [mulf_apply, subf_apply, broadcast_apply, bRowK, Ideal.ofBits_def]

theorem expBlk_apply (a : FVec Ideal S256x2048 .f32) (p : Fin 256) (k : Fin 2048) :
    expBlk a (ix2 p k) = Ideal.exp (a (ix2 p k) - max ⊥ ((Finset.univ : Finset (Fin 2048)).fold max ⊥ (fun k => a (ix2 p k)))) := by
  unfold expBlk
  rw [exp_apply, subf_apply, bColK, castCol, maximumf_apply, broadcast_apply, maxKk]
  simp only [Ideal.ofBits_def, ofBits_neg_inf]

theorem smBlk_apply (a : FVec Ideal S256x2048 .f32) (p : Fin 256) (k : Fin 2048) :
    smBlk a (ix2 p k) = smax (fun k => a (ix2 p k)) k := by
  unfold smBlk smax
  rw [divf_apply, bColK, castCol, sumKk]
  simp only [expBlk_apply]

theorem mseBlk_apply (y x : FVec Ideal S256x1024 .f32) (p : Fin 256) (u : Fin 1) :
    mseBlk y x (ix2 p u) = mse nD (fun d => y (ix2 p d)) (fun d => x (ix2 p d)) := by
  unfold mseBlk mse
  rw [divf_apply, castCol, sumDk, broadcast_apply]
  simp only [mulf_apply, subf_apply, Ideal.ofBits_def]

/-! ## The two payloads as compositions of the blocks -/

theorem pay4_eq (v0 : Vec Ideal S256x1024 .f32) (v4 : Vec Ideal S512x2048 .bf16) (v6 : Vec Ideal S1024x2048 .bf16)
    (v8 : Vec Ideal S2048x512 .bf16) (v10 : Vec Ideal S1x2048 .f32) :
    k0_pay4 v0 v4 v6 v8 v10
      = matmul dot_S256x512_S512x2048_S256x2048_1_0_0_1_n_n none
          (truncf .bf16 (matmul dot_S256x2048_S2048x512_S256x512_1_0_0_1_n_n none
            (truncf .bf16 (smBlk (logitsBlk (matmul dot_S256x1024_S1024x2048_S256x2048_1_0_0_1_n_n none (truncf .bf16 v0 bitsLt_bf16_f32)
                (shapeCast S1024x2048 v6 shapeCasts_S1024x2048_S1024x2048 : FVec Ideal S1024x2048 .bf16) (constant S256x2048 .f32 0x00000000#32))
              (Scalar.ofBits .f32 0x3B000000#32) (shapeCast S1x2048 v10 shapeCasts_S1x2048_S1x2048))) bitsLt_bf16_f32)
            (shapeCast S2048x512 v8 shapeCasts_S2048x512_S2048x512 : FVec Ideal S2048x512 .bf16) (constant S256x512 .f32 0x00000000#32)) bitsLt_bf16_f32)
          (shapeCast S512x2048 v4 shapeCasts_S512x2048_S512x2048 : FVec Ideal S512x2048 .bf16) (constant S256x2048 .f32 0x00000000#32) := rfl

theorem pay1_eq (v0 : Vec Ideal S256x1024 .f32) (v3 : FVec Ideal S2048x1024 .bf16) (v13 : FVec Ideal S1x2048 .f32)
    (v35 : FVec Ideal S256x2048 .f32) (c : Ideal .f32) :
    k0_pay1 v0 v3 v13 v35 c
      = mseBlk (matmul dot_S256x2048_S2048x1024_S256x1024_1_0_0_1_n_n none (truncf .bf16 (smBlk (logitsBlk v35 c v13)) bitsLt_bf16_f32) v3
          (constant S256x1024 .f32 0x00000000#32)) v0 := rfl

/-! ## The output block -/

/-- What the body stores is its last payload of the loaded blocks: the body loads and stores whole buffers. -/
theorem out_eq (x0 : Vec Ideal S256x1024 .f32) (x1 : Vec Ideal S2048x1024 .bf16) (x2 : Vec Ideal S512x2048 .bf16)
    (x3 : Vec Ideal S1024x2048 .bf16) (x4 : Vec Ideal S2048x512 .bf16) (x5 x6 : Vec Ideal S1x2048 .f32) :
    out0_7 x0 x1 x2 x3 x4 x5 x6
      = k0_pay1 x0 (k0_pay2 x1) (k0_pay3 x6) (k0_pay4 x0 x2 x3 x4 x5) (Scalar.ofBits .f32 0x3B800000#32) := by
  have hz : (![0, 0] : Fin 2 → ℕ) = fun _ => 0 := by funext a; fin_cases a <;> rfl
  unfold out0_7
  rw [View.canon_unit_zero hz]
  simp only [View.ld_unit_zero (S := S256x1024) hz, View.ld_unit_zero (S := S2048x1024) hz, View.ld_unit_zero (S := S512x2048) hz,
    View.ld_unit_zero (S := S1024x2048) hz, View.ld_unit_zero (S := S2048x512) hz, View.ld_unit_zero (S := S1x2048) hz]

/-- Row `p` of the stored column is the short form of the row function of row `p` of the input block, when the staged
    operands hold the weight matrices `W1` (by rows, and transposed) and `W2` (by rows, and transposed) and the mean squares
    of `W1`'s rows and of `W2`'s columns. -/
theorem out_spec (x0 : Vec Ideal S256x1024 .f32) (x1 : Vec Ideal S2048x1024 .bf16) (x2 : Vec Ideal S512x2048 .bf16)
    (x3 : Vec Ideal S1024x2048 .bf16) (x4 : Vec Ideal S2048x512 .bf16) (x5 x6 : Vec Ideal S1x2048 .f32)
    (W1 : Fin 2048 → Fin 1024 → EReal) (W2 : Fin 512 → Fin 2048 → EReal)
    (h1 : ∀ k d, x1 (ix2 k d) = W1 k d) (h2 : ∀ j k, x2 (ix2 j k) = W2 j k) (h3 : ∀ d k, x3 (ix2 d k) = W1 k d)
    (h4 : ∀ k j, x4 (ix2 k j) = W2 j k) (h5 : ∀ k, x5 (ix2 (0 : Fin 1) k) = Ideal.div (∑ d, W1 k d * W1 k d) nD)
    (h6 : ∀ k, x6 (ix2 (0 : Fin 1) k) = Ideal.div (∑ j, W2 j k * W2 j k) nE) (p : Fin 256) :
    out0_7 x0 x1 x2 x3 x4 x5 x6 (ix2 p (0 : Fin 1)) = encShort β cD nD cE nE W1 W2 (fun d => x0 (ix2 p d)) := by
  rw [out_eq, pay1_eq, mseBlk_apply]
  unfold encShort mix logShort
  simp only [mmD, mmC, mmB, mmA, truncf_apply, smBlk_apply, logitsBlk_apply, pay4_eq, shapeCast_self, k0_pay2, k0_pay3,
    h1, h2, h3, h4, h5, h6, Ideal.ofBits_def]

end Cert.Enc.Ker

end
-- ==== Proof.KernelValue.lean ====
/-
  The kernel program's result, row by row.

  Grid point `t` holds rows `256 t … 256 t + 255` of the first argument; the other staged operands are whole arrays
  that the host operations before the region computed from the two weight matrices: the matrices themselves and their
  transposes (a change of format is the identity on extended reals), and the mean squares of the first matrix's rows
  and of the second matrix's columns, as rows. So row `p` of the column the body stores at point `t` is the short form
  of the row function of row `256 t + p` of the first argument, and the result vector after the run holds, at every row,
  the short form of the row function of that row.
-/
import proofs.«155095_j67551245631803_2_alg».proof.Proof.KernelArray
import proofs.«155095_j67551245631803_2_alg».proof.Proof.KernelPay

noncomputable section

namespace Cert.Enc.KVal

open Cert.KernelIdeal Cert.KernelIdeal.Gen
open Idealize.ShloMosaic Idealize.ShloMosaic.ValueIdx Idealize.ShloMosaic.TcCoe Idealize.SL.Sem
open Cert.Enc Cert.Enc.Ops Cert.Enc.KArr Cert.Enc.Ker
open scoped BigOperators

variable (m : (ℓ : Loc Cert.KernelIdeal.nD τ sig) → Buf (Elt Ideal) ℓ) (ρ : Dev Cert.KernelIdeal.nD → PrngReg)

/-- The first argument as launched, and the two weight matrices by coordinates. -/
abbrev A0 (c : Dev Cert.KernelIdeal.nD) : FVec Ideal S8192x1024 .f32 := m ((c : Thread Cert.KernelIdeal.nD τ).loc main_arg0)
abbrev W1 (c : Dev Cert.KernelIdeal.nD) : Fin 2048 → Fin 1024 → EReal := fun k d => A1 m c (ix2 k d)
abbrev W2 (c : Dev Cert.KernelIdeal.nD) : Fin 512 → Fin 2048 → EReal := fun j k => A2 m c (ix2 j k)

/-- The result at row `r`: the short form of the row function of row `r` of the first argument. -/
def G (c : Dev Cert.KernelIdeal.nD) (r : Fin 8192) : EReal :=
  encShort β cD nD cE nE (W1 m c) (W2 m c) (fun d => A0 m c (ix2 r d))

/-- The staged row of mean squares of the first weight matrix's rows. -/
theorem meanSq1 (c : Dev Cert.KernelIdeal.nD) (k : Fin 2048) :
    (shapeCast S1x2048
        (Host.divf
          (Host.reduceAdd (mulf (A1 m c) (A1 m c)) (constant (F := Ideal) S_ .f32 0x00000000#32) reducesTo_S2048x1024_S2048_d1 h_S_)
          (broadcastInDim S2048 ![] bcast_S_S2048 (constant (F := Ideal) S_ .f32 0x44800000#32)))
        shapeCasts_S2048_S1x2048 : FVec Ideal S1x2048 .f32) (ix2 (0 : Fin 1) k)
      = Ideal.div (∑ d, W1 m c k d * W1 m c k d) nD := by
  rw [shapeCast_a_1a_apply, hostDivf_apply, host_rowSum, broadcastInDim_scalar_apply]
  simp only [mulf_apply, constant_apply, Ideal.ofBits_zero_f32, zero_add]

/-- The staged row of mean squares of the second weight matrix's columns. -/
theorem meanSq2 (c : Dev Cert.KernelIdeal.nD) (k : Fin 2048) :
    (shapeCast S1x2048
        (Host.divf
          (Host.reduceAdd (mulf (A2 m c) (A2 m c)) (constant (F := Ideal) S_ .f32 0x00000000#32) reducesTo_S512x2048_S2048_d0 h_S_)
          (broadcastInDim S2048 ![] bcast_S_S2048 (constant (F := Ideal) S_ .f32 0x44000000#32)))
        shapeCasts_S2048_S1x2048 : FVec Ideal S1x2048 .f32) (ix2 (0 : Fin 1) k)
      = Ideal.div (∑ j, W2 m c j k * W2 m c j k) nE := by
  rw [shapeCast_a_1a_apply, hostDivf_apply, host_colSum, broadcastInDim_scalar_apply]
  simp only [mulf_apply, constant_apply, Ideal.ofBits_zero_f32, zero_add]

/-- Row `p` of the column stored at point `t` is the result at row `256 t + p`. -/
theorem stored_row (c : Dev Cert.KernelIdeal.nD) (t : Fin cfg0.N) (p : Fin 256) :
    out0_7 (iblk m c 0 t) (iblk m c 1 t) (iblk m c 2 t) (iblk m c 3 t) (iblk m c 4 t) (iblk m c 5 t) (iblk m c 6 t) (ix2 p (0 : Fin 1))
      = G m c (row t p) := by
  refine (out_spec (iblk m c 0 t) (iblk m c 1 t) (iblk m c 2 t) (iblk m c 3 t) (iblk m c 4 t) (iblk m c 5 t) (iblk m c 6 t)
    (W1 m c) (W2 m c) ?_ ?_ ?_ ?_ ?_ ?_ p).trans ?_
  · intro k d; exact congrFun (iblk1_val m c t) (ix2 k d)
  · intro j k; exact congrFun (iblk2_val m c t) (ix2 j k)
  · intro d k; exact (congrFun (iblk3_val m c t) (ix2 d k)).trans (transpose_ix2_apply _ _ d k)
  · intro k j; exact (congrFun (iblk4_val m c t) (ix2 k j)).trans (transpose_ix2_apply _ _ k j)
  · intro k; exact (congrFun (iblk5_val m c t) (ix2 (0 : Fin 1) k)).trans (meanSq1 m c k)
  · intro k; exact (congrFun (iblk6_val m c t) (ix2 (0 : Fin 1) k)).trans (meanSq2 m c k)
  · unfold G
    exact congrArg (encShort β cD nD cE nE (W1 m c) (W2 m c)) (funext fun d => iblk0_apply m c t p d)

/-- THE KERNEL'S RUN: every weakly fair execution terminates with the result vector holding, at every row, the short form
    of the row function of that row of the first argument, and the arguments unchanged. -/
theorem run :
    θ_run defs (onTc (τ := τ) (main (F := Ideal))) ⟨m, fun _ => 0, ρ⟩ (fun r => ∀ c : Dev Cert.KernelIdeal.nD,
      r.2.mem ((c.tc : Thread Cert.KernelIdeal.nD τ).loc main_v17) = (fun i : S8192.Idx => G m c (i 0))
      ∧ r.2.mem ((c.tc : Thread Cert.KernelIdeal.nD τ).loc main_arg0) = m ((c.tc : Thread Cert.KernelIdeal.nD τ).loc main_arg0)
      ∧ r.2.mem ((c.tc : Thread Cert.KernelIdeal.nD τ).loc main_arg1) = m ((c.tc : Thread Cert.KernelIdeal.nD τ).loc main_arg1)
      ∧ r.2.mem ((c.tc : Thread Cert.KernelIdeal.nD τ).loc main_arg2) = m ((c.tc : Thread Cert.KernelIdeal.nD τ).loc main_arg2)) :=
  KArr.run m ρ (G m) (stored_row m)

end Cert.Enc.KVal

end
-- ==== Proof.lean ====
/-
  The proof of the certificate's claim: three frames, the idealization's ledger, and the value claim.

  The kernel soft-assigns each input row to the rows of a weight matrix by a softmax of negated mean squared
  distances, mixes a latent row, soft-assigns that to the columns of a second weight matrix, mixes a reconstruction
  and returns the mean squared error; it leaves out of both softmax arguments the row's own mean square, which is
  the same for every candidate. The reference keeps it. Subtracting one finite number from every logit of a softmax
  changes nothing — the row's maximum moves with it — so on finite inputs the two programs compute one function:
  the reference's result read row by row is the long form of the row function, the kernel's result assembled from
  its 32 blocks of 256 rows is the short form, and the two forms agree on real entries.

  The frames are the generated ones (the reference's is its run with the result dropped); the idealization rewrote
  nothing, so its ledger is empty.
-/
import proofs.«155095_j67551245631803_2_alg».proof.Defs
import proofs.«155095_j67551245631803_2_alg».proof.Proof.Gen.Kernel
import proofs.«155095_j67551245631803_2_alg».proof.Proof.Gen.Kernel.Skeleton
import proofs.«155095_j67551245631803_2_alg».proof.Proof.Gen.Kernel.Launch
import proofs.«155095_j67551245631803_2_alg».proof.Proof.Gen.Kernel.Points
import proofs.«155095_j67551245631803_2_alg».proof.Proof.Gen.Kernel.Frame
import proofs.«155095_j67551245631803_2_alg».proof.Proof.Gen.KernelIdeal
import proofs.«155095_j67551245631803_2_alg».proof.Proof.Gen.KernelIdeal.Skeleton
import proofs.«155095_j67551245631803_2_alg».proof.Proof.Gen.KernelIdeal.Launch
import proofs.«155095_j67551245631803_2_alg».proof.Proof.Gen.KernelIdeal.Points
import proofs.«155095_j67551245631803_2_alg».proof.Proof.Gen.KernelIdeal.Frame
import proofs.«155095_j67551245631803_2_alg».proof.Proof.Gen.ReferenceIdeal
import proofs.«155095_j67551245631803_2_alg».proof.Proof.Gen.ReferenceIdeal.Run
import proofs.«155095_j67551245631803_2_alg».proof.Proof.Gen.Pre_finite_inputs
import proofs.«155095_j67551245631803_2_alg».proof.Proof.Finite
import proofs.«155095_j67551245631803_2_alg».proof.Proof.RefValue
import proofs.«155095_j67551245631803_2_alg».proof.Proof.KernelValue
import Idealize.ShloMosaic.Adequacy
import Idealize.ShloMosaic.Init

noncomputable section

namespace Cert.Proof

open Idealize.ShloMosaic Idealize.ShloMosaic.ValueIdx Idealize.ShloMosaic.StableHlo Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both programs end with, at every row, the row function of that row of
    the first argument: the kernel in the short form, the reference in the long form, equal because the precondition
    makes every entry a real number. -/
theorem algebraic : Cert.algebraic_KernelIdeal_ReferenceIdeal := by
  intro m ρ m' ρ' hpre hagree
  refine ⟨fun c => (fun i : Cert.KernelIdeal.S8192.Idx => Cert.Enc.KVal.G m c (i 0)), Cert.Enc.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.Enc.Ref.result_eq]
  funext i
  obtain ⟨h0, h1, h2⟩ := Cert.Enc.Finite.real_of_pre m hpre c
  have e0 : Cert.Enc.Ref.a0 (launchContents m' c) = Cert.Enc.KVal.A0 m c := (hagree c).1
  have e1 : Cert.Enc.Ref.a1 (launchContents m' c) = Cert.Enc.KArr.A1 m c := (hagree c).2.1
  have e2 : Cert.Enc.Ref.a2 (launchContents m' c) = Cert.Enc.KArr.A2 m c := (hagree c).2.2
  have ew1 : Cert.Enc.Ref.w1 (launchContents m' c) = Cert.Enc.KVal.W1 m c := by
    funext k d; exact congrFun e1 (ix2 k d)
  have ew2 : Cert.Enc.Ref.w2 (launchContents m' c) = Cert.Enc.KVal.W2 m c := by
    funext j k; exact congrFun e2 (ix2 j k)
  have ex : Cert.Enc.Ref.xrow (launchContents m' c) (i 0) = fun d => Cert.Enc.KVal.A0 m c (ix2 (i 0) d) := by
    funext d; exact congrFun e0 (ix2 (i 0) d)
  show Cert.Enc.encLong _ _ _ _ _ (Cert.Enc.Ref.w1 (launchContents m' c)) (Cert.Enc.Ref.w2 (launchContents m' c))
      (Cert.Enc.Ref.xrow (launchContents m' c) (i 0)) = Cert.Enc.KVal.G m c (i 0)
  rw [ew1, ew2, ex]
  unfold Cert.Enc.KVal.G
  exact Cert.Enc.encLong_eq_encShort (by norm_num) Cert.Enc.isReal_temperature Cert.Enc.isReal_two_over_1024 Cert.Enc.nD_real
    Cert.Enc.isReal_two_over_512 Cert.Enc.nE_real _ _ _ (fun k d => h1 (ix2 k d)) (fun j k => h2 (ix2 j k)) (fun d => h0 (ix2 (i 0) d))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
